-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v162)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v162) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x65536 : Shape := ⟨2, ![2, 65536]⟩
abbrev S2048x256 : Shape := ⟨2, ![2048, 256]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S768x1024 : Shape := ⟨2, ![768, 1024]⟩
abbrev S768 : Shape := ⟨1, ![768]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S768x1024 : S_.BroadcastsInDim S768x1024 (![] : Fin 0 → Fin S768x1024.rank)
  reducesTo_S768x1024_S_d0_1 : S768x1024.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg8 : FVec F S768x1024 .f32) (main_arg9 : FVec F S768 .f32) (main_v33 : IVec S_ 1) : IVec S_ 1 :=
  let main_v34 : FVec F S768x1024 .f32 := Host.absf main_arg8
  let main_cst_12 : FVec F S_ .f32 := constant S_ .f32 0x7F800000#32
  let main_v35 : FVec F S768x1024 .f32 := broadcastInDim S768x1024 ![] bcast_S_S768x1024 main_cst_12
  let main_v36 : IVec S768x1024 1 := cmpf .olt main_v34 main_v35
  let main_c_13 : IVec S_ 1 := constantI S_ 1 1#1
  let main_v37 : IVec S_ 1 := (fun x v => Host.reduce IntOp.andi x v reducesTo_S768x1024_S_d0_1 h_S_) main_v36 main_c_13
  let main_v38 : IVec S_ 1 := andi main_v33 main_v37
  let main_v39 : FVec F S768 .f32 := Host.absf main_arg9
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg5 : FVec F S2048 .f32) (main_arg6 : FVec F S1024x2048 .f32) (main_arg7 : FVec F S1024 .f32) (main_arg8 : FVec F S768x1024 .f32) (main_arg9 : FVec F S768 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_v33

def fn {F : FTy → Type} [FloatOps F] (main_arg0 : FVec F S8192x256 .f32) (main_arg1 : IVec S2x65536 32) (main_arg2 : FVec F S2048x256 .f32) (main_arg3 : FVec F S2048 .f32) (main_arg4 : FVec F S2048x2048 .f32) (main_arg5 : FVec F S2048 .f32) (main_arg6 : FVec F S1024x2048 .f32) (main_arg7 : FVec F S1024 .f32) (main_arg8 : FVec F S768x1024 .f32) (main_arg9 : FVec F S768 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S2048x256 .f32 := Host.absf main_arg2
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_arg7 main_arg8 main_arg9 main_v13 main_v16
-- ==== Kernel.lean ====
abbrev S8192x256 : Shape := ⟨2, ![8192, 256]⟩
abbrev S2x65536 : Shape := ⟨2, ![2, 65536]⟩
abbrev S2048x256 : Shape := ⟨2, ![2048, 256]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S768x1024 : Shape := ⟨2, ![768, 1024]⟩
abbrev S768 : Shape := ⟨1, ![768]⟩
abbrev S8192x2048 : Shape := ⟨2, ![8192, 2048]⟩
abbrev S512x256 : Shape := ⟨2, ![512, 256]⟩
abbrev S512x512 : Shape := ⟨2, ![512, 512]⟩
abbrev S8192 : Shape := ⟨1, ![8192]⟩
abbrev S1x65536 : Shape := ⟨2, ![1, 65536]⟩
abbrev S65536 : Shape := ⟨1, ![65536]⟩
abbrev S73728 : Shape := ⟨1, ![73728]⟩
abbrev S_ : Shape := ⟨0, ![]⟩
abbrev S73728x1 : Shape := ⟨2, ![73728, 1]⟩
abbrev S73728x2048 : Shape := ⟨2, ![73728, 2048]⟩
abbrev S1x2048 : Shape := ⟨2, ![1, 2048]⟩
abbrev S512x2048 : Shape := ⟨2, ![512, 2048]⟩
abbrev S8192x1024 : Shape := ⟨2, ![8192, 1024]⟩
abbrev S73728x1024 : Shape := ⟨2, ![73728, 1024]⟩
abbrev S1x1024 : Shape := ⟨2, ![1, 1024]⟩
abbrev S8192x768 : Shape := ⟨2, ![8192, 768]⟩
abbrev S512x1024 : Shape := ⟨2, ![512, 1024]⟩
abbrev S256x1024 : Shape := ⟨2, ![256, 1024]⟩
abbrev S1x768 : Shape := ⟨2, ![1, 768]⟩

abbrev nBuf : Space → Nat
  | .hbm => 218
  | .vmem => 24
  | .smem => 0
  | _ => 0

abbrev hbmTy0_0 (i : Nat) : BufTy := match i % 128 with
  | 0 => ⟨S8192x256, .f32⟩
  | 1 => ⟨S2x65536, .i32⟩
  | 2 => ⟨S2048x256, .f32⟩
  | 3 => ⟨S2048, .f32⟩
  | 4 => ⟨S2048x2048, .f32⟩
  | 5 => ⟨S2048, .f32⟩
  | 6 => ⟨S1024x2048, .f32⟩
  | 7 => ⟨S1024, .f32⟩
  | 8 => ⟨S768x1024, .f32⟩
  | 9 => ⟨S768, .f32⟩
  | 10 => ⟨S8192x2048, .f32⟩
  | 11 => ⟨S8192, .i32⟩
  | 12 => ⟨S1x65536, .i32⟩
  | 13 => ⟨S65536, .i32⟩
  | 14 => ⟨S73728, .i32⟩
  | 15 => ⟨S1x65536, .i32⟩
  | 16 => ⟨S65536, .i32⟩
  | 17 => ⟨S73728, .i32⟩
  | 18 => ⟨S_, .f32⟩
  | 19 => ⟨S8192, .f32⟩
  | 20 => ⟨S_, .f32⟩
  | 21 => ⟨S73728, .f32⟩
  | 22 => ⟨S_, .i32⟩
  | 23 => ⟨S73728, .i32⟩
  | 24 => ⟨S73728, .i1⟩
  | 25 => ⟨S_, .i32⟩
  | 26 => ⟨S73728, .i32⟩
  | 27 => ⟨S73728, .i32⟩
  | 28 => ⟨S73728, .i32⟩
  | 29 => ⟨S73728x1, .i32⟩
  | 30 => ⟨S8192, .f32⟩
  | 31 => ⟨S_, .f32⟩
  | 32 => ⟨S8192, .f32⟩
  | 33 => ⟨S8192, .i1⟩
  | 34 => ⟨S8192, .f32⟩
  | 35 => ⟨S_, .f32⟩
  | 36 => ⟨S_, .f32⟩
  | 37 => ⟨S8192, .f32⟩
  | 38 => ⟨S8192, .f32⟩
  | 39 => ⟨S_, .i32⟩
  | 40 => ⟨S73728, .i32⟩
  | 41 => ⟨S73728, .i1⟩
  | 42 => ⟨S_, .i32⟩
  | 43 => ⟨S73728, .i32⟩
  | 44 => ⟨S73728, .i32⟩
  | 45 => ⟨S73728, .i32⟩
  | 46 => ⟨S73728x1, .i32⟩
  | 47 => ⟨S73728, .f32⟩
  | 48 => ⟨S_, .i32⟩
  | 49 => ⟨S73728, .i32⟩
  | 50 => ⟨S73728, .i1⟩
  | 51 => ⟨S_, .i32⟩
  | 52 => ⟨S73728, .i32⟩
  | 53 => ⟨S73728, .i32⟩
  | 54 => ⟨S73728, .i32⟩
  | 55 => ⟨S73728x1, .i32⟩
  | 56 => ⟨S73728, .f32⟩
  | 57 => ⟨S73728, .f32⟩
  | 58 => ⟨S_, .i32⟩
  | 59 => ⟨S73728, .i32⟩
  | 60 => ⟨S73728, .i1⟩
  | 61 => ⟨S_, .i32⟩
  | 62 => ⟨S73728, .i32⟩
  | 63 => ⟨S73728, .i32⟩
  | 64 => ⟨S73728, .i32⟩
  | 65 => ⟨S73728x1, .i32⟩
  | 66 => ⟨S73728x2048, .f32⟩
  | 67 => ⟨S73728x1, .f32⟩
  | 68 => ⟨S73728x2048, .f32⟩
  | 69 => ⟨S73728x2048, .f32⟩
  | 70 => ⟨S_, .f32⟩
  | 71 => ⟨S8192x2048, .f32⟩
  | 72 => ⟨S73728x1, .i32⟩
  | 73 => ⟨S8192x2048, .f32⟩
  | 74 => ⟨S1x2048, .f32⟩
  | 75 => ⟨S8192x2048, .f32⟩
  | 76 => ⟨S8192x2048, .f32⟩
  | 77 => ⟨S8192x2048, .f32⟩
  | 78 => ⟨S8192x2048, .f32⟩
  | 79 => ⟨S8192, .i32⟩
  | 80 => ⟨S1x65536, .i32⟩
  | 81 => ⟨S65536, .i32⟩
  | 82 => ⟨S73728, .i32⟩
  | 83 => ⟨S1x65536, .i32⟩
  | 84 => ⟨S65536, .i32⟩
  | 85 => ⟨S73728, .i32⟩
  | 86 => ⟨S_, .f32⟩
  | 87 => ⟨S8192, .f32⟩
  | 88 => ⟨S_, .f32⟩
  | 89 => ⟨S73728, .f32⟩
  | 90 => ⟨S_, .i32⟩
  | 91 => ⟨S73728, .i32⟩
  | 92 => ⟨S73728, .i1⟩
  | 93 => ⟨S_, .i32⟩
  | 94 => ⟨S73728, .i32⟩
  | 95 => ⟨S73728, .i32⟩
  | 96 => ⟨S73728, .i32⟩
  | 97 => ⟨S73728x1, .i32⟩
  | 98 => ⟨S8192, .f32⟩
  | 99 => ⟨S_, .f32⟩
  | 100 => ⟨S8192, .f32⟩
  | 101 => ⟨S8192, .i1⟩
  | 102 => ⟨S8192, .f32⟩
  | 103 => ⟨S_, .f32⟩
  | 104 => ⟨S_, .f32⟩
  | 105 => ⟨S8192, .f32⟩
  | 106 => ⟨S8192, .f32⟩
  | 107 => ⟨S_, .i32⟩
  | 108 => ⟨S73728, .i32⟩
  | 109 => ⟨S73728, .i1⟩
  | 110 => ⟨S_, .i32⟩
  | 111 => ⟨S73728, .i32⟩
  | 112 => ⟨S73728, .i32⟩
  | 113 => ⟨S73728, .i32⟩
  | 114 => ⟨S73728x1, .i32⟩
  | 115 => ⟨S73728, .f32⟩
  | 116 => ⟨S_, .i32⟩
  | 117 => ⟨S73728, .i32⟩
  | 118 => ⟨S73728, .i1⟩
  | 119 => ⟨S_, .i32⟩
  | 120 => ⟨S73728, .i32⟩
  | 121 => ⟨S73728, .i32⟩
  | 122 => ⟨S73728, .i32⟩
  | 123 => ⟨S73728x1, .i32⟩
  | 124 => ⟨S73728, .f32⟩
  | 125 => ⟨S73728, .f32⟩
  | 126 => ⟨S_, .i32⟩
  | 127 => ⟨S73728, .i32⟩
  | _ => ⟨S8192x256, .f32⟩

abbrev hbmTy0_1 (i : Nat) : BufTy := match i % 128 with
  | 0 => ⟨S73728, .i1⟩
  | 1 => ⟨S_, .i32⟩
  | 2 => ⟨S73728, .i32⟩
  | 3 => ⟨S73728, .i32⟩
  | 4 => ⟨S73728, .i32⟩
  | 5 => ⟨S73728x1, .i32⟩
  | 6 => ⟨S73728x2048, .f32⟩
  | 7 => ⟨S73728x1, .f32⟩
  | 8 => ⟨S73728x2048, .f32⟩
  | 9 => ⟨S73728x2048, .f32⟩
  | 10 => ⟨S_, .f32⟩
  | 11 => ⟨S8192x2048, .f32⟩
  | 12 => ⟨S73728x1, .i32⟩
  | 13 => ⟨S8192x2048, .f32⟩
  | 14 => ⟨S1x2048, .f32⟩
  | 15 => ⟨S8192x2048, .f32⟩
  | 16 => ⟨S8192x2048, .f32⟩
  | 17 => ⟨S8192x2048, .f32⟩
  | 18 => ⟨S8192x1024, .f32⟩
  | 19 => ⟨S8192, .i32⟩
  | 20 => ⟨S1x65536, .i32⟩
  | 21 => ⟨S65536, .i32⟩
  | 22 => ⟨S73728, .i32⟩
  | 23 => ⟨S1x65536, .i32⟩
  | 24 => ⟨S65536, .i32⟩
  | 25 => ⟨S73728, .i32⟩
  | 26 => ⟨S_, .f32⟩
  | 27 => ⟨S8192, .f32⟩
  | 28 => ⟨S_, .f32⟩
  | 29 => ⟨S73728, .f32⟩
  | 30 => ⟨S_, .i32⟩
  | 31 => ⟨S73728, .i32⟩
  | 32 => ⟨S73728, .i1⟩
  | 33 => ⟨S_, .i32⟩
  | 34 => ⟨S73728, .i32⟩
  | 35 => ⟨S73728, .i32⟩
  | 36 => ⟨S73728, .i32⟩
  | 37 => ⟨S73728x1, .i32⟩
  | 38 => ⟨S8192, .f32⟩
  | 39 => ⟨S_, .f32⟩
  | 40 => ⟨S8192, .f32⟩
  | 41 => ⟨S8192, .i1⟩
  | 42 => ⟨S8192, .f32⟩
  | 43 => ⟨S_, .f32⟩
  | 44 => ⟨S_, .f32⟩
  | 45 => ⟨S8192, .f32⟩
  | 46 => ⟨S8192, .f32⟩
  | 47 => ⟨S_, .i32⟩
  | 48 => ⟨S73728, .i32⟩
  | 49 => ⟨S73728, .i1⟩
  | 50 => ⟨S_, .i32⟩
  | 51 => ⟨S73728, .i32⟩
  | 52 => ⟨S73728, .i32⟩
  | 53 => ⟨S73728, .i32⟩
  | 54 => ⟨S73728x1, .i32⟩
  | 55 => ⟨S73728, .f32⟩
  | 56 => ⟨S_, .i32⟩
  | 57 => ⟨S73728, .i32⟩
  | 58 => ⟨S73728, .i1⟩
  | 59 => ⟨S_, .i32⟩
  | 60 => ⟨S73728, .i32⟩
  | 61 => ⟨S73728, .i32⟩
  | 62 => ⟨S73728, .i32⟩
  | 63 => ⟨S73728x1, .i32⟩
  | 64 => ⟨S73728, .f32⟩
  | 65 => ⟨S73728, .f32⟩
  | 66 => ⟨S_, .i32⟩
  | 67 => ⟨S73728, .i32⟩
  | 68 => ⟨S73728, .i1⟩
  | 69 => ⟨S_, .i32⟩
  | 70 => ⟨S73728, .i32⟩
  | 71 => ⟨S73728, .i32⟩
  | 72 => ⟨S73728, .i32⟩
  | 73 => ⟨S73728x1, .i32⟩
  | 74 => ⟨S73728x1024, .f32⟩
  | 75 => ⟨S73728x1, .f32⟩
  | 76 => ⟨S73728x1024, .f32⟩
  | 77 => ⟨S73728x1024, .f32⟩
  | 78 => ⟨S_, .f32⟩
  | 79 => ⟨S8192x1024, .f32⟩
  | 80 => ⟨S73728x1, .i32⟩
  | 81 => ⟨S8192x1024, .f32⟩
  | 82 => ⟨S1x1024, .f32⟩
  | 83 => ⟨S8192x1024, .f32⟩
  | 84 => ⟨S8192x1024, .f32⟩
  | 85 => ⟨S8192x1024, .f32⟩
  | 86 => ⟨S8192x768, .f32⟩
  | 87 => ⟨S1x768, .f32⟩
  | 88 => ⟨S8192x768, .f32⟩
  | 89 => ⟨S8192x768, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x512, .f32⟩
  | .local _ .vmem, ⟨11, _⟩ => ⟨S512x512, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x512, .f32⟩
  | .local _ .vmem, ⟨17, _⟩ => ⟨S512x512, .f32⟩
  | .local _ .vmem, ⟨18, _⟩ => ⟨S512x1024, .f32⟩
  | .local _ .vmem, ⟨19, _⟩ => ⟨S512x1024, .f32⟩
  | .local _ .vmem, ⟨20, _⟩ => ⟨S256x1024, .f32⟩
  | .local _ .vmem, ⟨21, _⟩ => ⟨S256x1024, .f32⟩
  | .local _ .vmem, ⟨22, _⟩ => ⟨S512x256, .f32⟩
  | .local _ .vmem, ⟨23, _⟩ => ⟨S512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_15 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_16 : Ref sig .tc := ⟨.hbm, 103, rfl⟩
abbrev main_call3_v0 : Ref sig .tc := ⟨.hbm, 104, rfl⟩
abbrev main_call3_v1 : Ref sig .tc := ⟨.hbm, 105, rfl⟩
abbrev main_v73 : Ref sig .tc := ⟨.hbm, 106, rfl⟩
abbrev main_c_17 : Ref sig .tc := ⟨.hbm, 107, rfl⟩
abbrev main_v74 : Ref sig .tc := ⟨.hbm, 108, rfl⟩
abbrev main_v75 : Ref sig .tc := ⟨.hbm, 109, rfl⟩
abbrev main_c_18 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_19 : Ref sig .tc := ⟨.hbm, 116, rfl⟩
abbrev main_v81 : Ref sig .tc := ⟨.hbm, 117, rfl⟩
abbrev main_v82 : Ref sig .tc := ⟨.hbm, 118, rfl⟩
abbrev main_c_20 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_21 : Ref sig .tc := ⟨.hbm, 126, rfl⟩
abbrev main_v89 : Ref sig .tc := ⟨.hbm, 127, rfl⟩
abbrev main_v90 : Ref sig .tc := ⟨.hbm, 128, rfl⟩
abbrev main_c_22 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_23 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_24 : Ref sig .tc := ⟨.hbm, 154, rfl⟩
abbrev main_v114 : Ref sig .tc := ⟨.hbm, 155, rfl⟩
abbrev main_cst_25 : Ref sig .tc := ⟨.hbm, 156, rfl⟩
abbrev main_v115 : Ref sig .tc := ⟨.hbm, 157, rfl⟩
abbrev main_c_26 : Ref sig .tc := ⟨.hbm, 158, rfl⟩
abbrev main_v116 : Ref sig .tc := ⟨.hbm, 159, rfl⟩
abbrev main_v117 : Ref sig .tc := ⟨.hbm, 160, rfl⟩
abbrev main_c_27 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_28 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_29 : Ref sig .tc := ⟨.hbm, 171, rfl⟩
abbrev main_call5_v0 : Ref sig .tc := ⟨.hbm, 172, rfl⟩
abbrev main_call5_v1 : Ref sig .tc := ⟨.hbm, 173, rfl⟩
abbrev main_v126 : Ref sig .tc := ⟨.hbm, 174, rfl⟩
abbrev main_c_30 : Ref sig .tc := ⟨.hbm, 175, rfl⟩
abbrev main_v127 : Ref sig .tc := ⟨.hbm, 176, rfl⟩
abbrev main_v128 : Ref sig .tc := ⟨.hbm, 177, rfl⟩
abbrev main_c_31 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_c_32 : Ref sig .tc := ⟨.hbm, 184, rfl⟩
abbrev main_v134 : Ref sig .tc := ⟨.hbm, 185, rfl⟩
abbrev main_v135 : Ref sig .tc := ⟨.hbm, 186, rfl⟩
abbrev main_c_33 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_c_34 : Ref sig .tc := ⟨.hbm, 194, rfl⟩
abbrev main_v142 : Ref sig .tc := ⟨.hbm, 195, rfl⟩
abbrev main_v143 : Ref sig .tc := ⟨.hbm, 196, rfl⟩
abbrev main_c_35 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_cst_36 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![16, 3], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  slices_S2x65536_S1x65536_0_0 : S2x65536.Slices ![0, 0] S1x65536
  shapeCasts_S1x65536_S65536 : S1x65536.ShapeCasts S65536
  concatenates_S65536_S8192_S73728_d0 : Shape.Concatenates [S65536, S8192] S73728 0
  slices_S2x65536_S1x65536_1_0 : S2x65536.Slices ![1, 0] S1x65536
  bcast_S_S8192 : S_.BroadcastsInDim S8192 (![] : Fin 0 → Fin S8192.rank)
  bcast_S_S73728 : S_.BroadcastsInDim S73728 (![] : Fin 0 → Fin S73728.rank)
  bcast_S73728_S73728x1_0 : S73728.BroadcastsInDim S73728x1 (![0] : Fin 1 → Fin S73728x1.rank)
  bcast_S73728x1_S73728x2048_0_1 : S73728x1.BroadcastsInDim S73728x2048 (![0, 1] : Fin 2 → Fin S73728x2048.rank)
  bcast_S_S8192x2048 : S_.BroadcastsInDim S8192x2048 (![] : Fin 0 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bcast_S73728x1_S73728x1024_0_1 : S73728x1.BroadcastsInDim S73728x1024 (![0, 1] : Fin 2 → Fin S73728x1024.rank)
  bcast_S_S8192x1024 : S_.BroadcastsInDim S8192x1024 (![] : Fin 0 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S256x1024_S256x1024_0_0 : ∀ a, (![0, 0] : Fin 2 → Nat) a + S256x1024.size a ≤ S256x1024.size a
  h_S256x1024 : 0 < S256x1024.numel
  bcast_S768_S1x768_1 : S768.BroadcastsInDim S1x768 (![1] : Fin 1 → Fin S1x768.rank)
  bcast_S1x768_S8192x768_0_1 : S1x768.BroadcastsInDim S8192x768 (![0, 1] : Fin 2 → Fin S8192x768.rank)
  dot_S512x256_S512x256_S512x512_1_1_0_0_n_n_wf : DotDims.WF S512x256 S512x256 S512x512 [1] [1] [0] [0] [] []
  scatter_S8192_S73728x1_S73728_n_0_0_1_wf : ScatterDims.WF S8192 S73728x1 S73728 [] [0] [0] 1
  gather_S8192_S73728x1_S73728_n_0_n_n_0_1_1_wf : GatherDims.WF S8192 S73728x1 S73728 [] [0] [] [0] [] 1 ![1]
  gather_S8192x2048_S73728x1_S73728x2048_1_0_n_n_0_1_12048_wf : GatherDims.WF S8192x2048 S73728x1 S73728x2048 [1] [0] [] [0] [] 1 ![1, 2048]
  scatter_S8192x2048_S73728x1_S73728x2048_1_0_0_1_wf : ScatterDims.WF S8192x2048 S73728x1 S73728x2048 [1] [0] [0] 1
  dot_S512x2048_S512x2048_S512x512_1_1_0_0_n_n_wf : DotDims.WF S512x2048 S512x2048 S512x512 [1] [1] [0] [0] [] []
  gather_S8192x1024_S73728x1_S73728x1024_1_0_n_n_0_1_11024_wf : GatherDims.WF S8192x1024 S73728x1 S73728x1024 [1] [0] [] [0] [] 1 ![1, 1024]
  scatter_S8192x1024_S73728x1_S73728x1024_1_0_0_1_wf : ScatterDims.WF S8192x1024 S73728x1 S73728x1024 [1] [0] [0] 1
  dot_S512x1024_S256x1024_S512x256_1_1_0_0_n_n_wf : DotDims.WF S512x1024 S256x1024 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S2048x256.size a
  hwx0_1 : ∀ i : grid0.Coords, EltTy.bits .f32 = 32 ∨ (Rect.block (s := S2048x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x2048.size a
  hwx0_2 : ∀ i : grid0.Coords, EltTy.bits .f32 = 32 ∨ (Rect.block (s := S8192x2048) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S2048x2048.size a
  hwx1_1 : ∀ i : grid1.Coords, EltTy.bits .f32 = 32 ∨ (Rect.block (s := S2048x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S8192x2048.size a
  hwx1_2 : ∀ i : grid1.Coords, EltTy.bits .f32 = 32 ∨ (Rect.block (s := S8192x2048) S512x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x2048.size a
  hwx2_0 : ∀ i : grid2.Coords, EltTy.bits .f32 = 32 ∨ (Rect.block (s := S8192x2048) S512x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S1024x2048.size a
  hwx2_1 : ∀ i : grid2.Coords, EltTy.bits .f32 = 32 ∨ (Rect.block (s := S1024x2048) S512x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S8192x1024.size a
  hwx2_2 : ∀ i : grid2.Coords, EltTy.bits .f32 = 32 ∨ (Rect.block (s := S8192x1024) S512x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S8192x1024.size a
  hwx3_0 : ∀ i : grid3.Coords, EltTy.bits .f32 = 32 ∨ (Rect.block (s := S8192x1024) S512x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x1024.size a ≤ S768x1024.size a
  hwx3_1 : ∀ i : grid3.Coords, EltTy.bits .f32 = 32 ∨ (Rect.block (s := S768x1024) S256x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x256.size a ≤ S8192x768.size a
  hwx3_2 : ∀ i : grid3.Coords, EltTy.bits .f32 = 32 ∨ (Rect.block (s := S8192x768) S512x256.size (cc3_transform_2 i) (hinb3_2 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf
def scatter_S8192_S73728x1_S73728_n_0_0_1 : ScatterDims S8192 S73728x1 S73728 where
  updateWindowDims := []
  insertedWindowDims := [0]
  scatterDimsToOperandDims := [0]
  indexVectorDim := 1
  wf := scatter_S8192_S73728x1_S73728_n_0_0_1_wf
def gather_S8192_S73728x1_S73728_n_0_n_n_0_1_1 : GatherDims S8192 S73728x1 S73728 where
  offsetDims := []
  collapsedSliceDims := [0]
  operandBatchingDims := []
  startIndicesBatchingDims := []
  startIndexMap := [0]
  indexVectorDim := 1
  sliceSizes := ![1]
  wf := gather_S8192_S73728x1_S73728_n_0_n_n_0_1_1_wf
def gather_S8192x2048_S73728x1_S73728x2048_1_0_n_n_0_1_12048 : GatherDims S8192x2048 S73728x1 S73728x2048 where
  offsetDims := [1]
  collapsedSliceDims := [0]
  operandBatchingDims := []
  startIndicesBatchingDims := []
  startIndexMap := [0]
  indexVectorDim := 1
  sliceSizes := ![1, 2048]
  wf := gather_S8192x2048_S73728x1_S73728x2048_1_0_n_n_0_1_12048_wf
def scatter_S8192x2048_S73728x1_S73728x2048_1_0_0_1 : ScatterDims S8192x2048 S73728x1 S73728x2048 where
  updateWindowDims := [1]
  insertedWindowDims := [0]
  scatterDimsToOperandDims := [0]
  indexVectorDim := 1
  wf := scatter_S8192x2048_S73728x1_S73728x2048_1_0_0_1_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def gather_S8192x1024_S73728x1_S73728x1024_1_0_n_n_0_1_11024 : GatherDims S8192x1024 S73728x1 S73728x1024 where
  offsetDims := [1]
  collapsedSliceDims := [0]
  operandBatchingDims := []
  startIndicesBatchingDims := []
  startIndexMap := [0]
  indexVectorDim := 1
  sliceSizes := ![1, 1024]
  wf := gather_S8192x1024_S73728x1_S73728x1024_1_0_n_n_0_1_11024_wf
def scatter_S8192x1024_S73728x1_S73728x1024_1_0_0_1 : ScatterDims S8192x1024 S73728x1 S73728x1024 where
  updateWindowDims := [1]
  insertedWindowDims := [0]
  scatterDimsToOperandDims := [0]
  indexVectorDim := 1
  wf := scatter_S8192x1024_S73728x1_S73728x1024_1_0_0_1_wf
def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v105) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v106) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v158) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S256x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v159) S512x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8192x256 : Shape := ⟨2, ![8192, 256]⟩
abbrev S2x65536 : Shape := ⟨2, ![2, 65536]⟩
abbrev S2048x256 : Shape := ⟨2, ![2048, 256]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S768x1024 : Shape := ⟨2, ![768, 1024]⟩
abbrev S768 : Shape := ⟨1, ![768]⟩
abbrev S256x2048 : Shape := ⟨2, ![256, 2048]⟩
abbrev S8192x2048 : Shape := ⟨2, ![8192, 2048]⟩
abbrev S8192 : Shape := ⟨1, ![8192]⟩
abbrev S1x65536 : Shape := ⟨2, ![1, 65536]⟩
abbrev S65536 : Shape := ⟨1, ![65536]⟩
abbrev S73728 : Shape := ⟨1, ![73728]⟩
abbrev S_ : Shape := ⟨0, ![]⟩
abbrev S73728x1 : Shape := ⟨2, ![73728, 1]⟩
abbrev S73728x2048 : Shape := ⟨2, ![73728, 2048]⟩
abbrev S1x2048 : Shape := ⟨2, ![1, 2048]⟩
abbrev S2048x1024 : Shape := ⟨2, ![2048, 1024]⟩
abbrev S8192x1024 : Shape := ⟨2, ![8192, 1024]⟩
abbrev S73728x1024 : Shape := ⟨2, ![73728, 1024]⟩
abbrev S1x1024 : Shape := ⟨2, ![1, 1024]⟩
abbrev S1024x768 : Shape := ⟨2, ![1024, 768]⟩
abbrev S8192x768 : Shape := ⟨2, ![8192, 768]⟩
abbrev S1x768 : Shape := ⟨2, ![1, 768]⟩

abbrev nBuf : Space → Nat
  | .hbm => 222
  | .vmem => 0
  | .smem => 0
  | _ => 0

abbrev hbmTy0_0 (i : Nat) : BufTy := match i % 128 with
  | 0 => ⟨S8192x256, .f32⟩
  | 1 => ⟨S2x65536, .i32⟩
  | 2 => ⟨S2048x256, .f32⟩
  | 3 => ⟨S2048, .f32⟩
  | 4 => ⟨S2048x2048, .f32⟩
  | 5 => ⟨S2048, .f32⟩
  | 6 => ⟨S1024x2048, .f32⟩
  | 7 => ⟨S1024, .f32⟩
  | 8 => ⟨S768x1024, .f32⟩
  | 9 => ⟨S768, .f32⟩
  | 10 => ⟨S256x2048, .f32⟩
  | 11 => ⟨S8192x2048, .f32⟩
  | 12 => ⟨S8192, .i32⟩
  | 13 => ⟨S1x65536, .i32⟩
  | 14 => ⟨S65536, .i32⟩
  | 15 => ⟨S73728, .i32⟩
  | 16 => ⟨S1x65536, .i32⟩
  | 17 => ⟨S65536, .i32⟩
  | 18 => ⟨S73728, .i32⟩
  | 19 => ⟨S_, .f32⟩
  | 20 => ⟨S8192, .f32⟩
  | 21 => ⟨S_, .f32⟩
  | 22 => ⟨S73728, .f32⟩
  | 23 => ⟨S_, .i32⟩
  | 24 => ⟨S73728, .i32⟩
  | 25 => ⟨S73728, .i1⟩
  | 26 => ⟨S_, .i32⟩
  | 27 => ⟨S73728, .i32⟩
  | 28 => ⟨S73728, .i32⟩
  | 29 => ⟨S73728, .i32⟩
  | 30 => ⟨S73728x1, .i32⟩
  | 31 => ⟨S8192, .f32⟩
  | 32 => ⟨S_, .f32⟩
  | 33 => ⟨S8192, .f32⟩
  | 34 => ⟨S8192, .i1⟩
  | 35 => ⟨S8192, .f32⟩
  | 36 => ⟨S_, .f32⟩
  | 37 => ⟨S_, .f32⟩
  | 38 => ⟨S8192, .f32⟩
  | 39 => ⟨S8192, .f32⟩
  | 40 => ⟨S_, .i32⟩
  | 41 => ⟨S73728, .i32⟩
  | 42 => ⟨S73728, .i1⟩
  | 43 => ⟨S_, .i32⟩
  | 44 => ⟨S73728, .i32⟩
  | 45 => ⟨S73728, .i32⟩
  | 46 => ⟨S73728, .i32⟩
  | 47 => ⟨S73728x1, .i32⟩
  | 48 => ⟨S73728, .f32⟩
  | 49 => ⟨S_, .i32⟩
  | 50 => ⟨S73728, .i32⟩
  | 51 => ⟨S73728, .i1⟩
  | 52 => ⟨S_, .i32⟩
  | 53 => ⟨S73728, .i32⟩
  | 54 => ⟨S73728, .i32⟩
  | 55 => ⟨S73728, .i32⟩
  | 56 => ⟨S73728x1, .i32⟩
  | 57 => ⟨S73728, .f32⟩
  | 58 => ⟨S73728, .f32⟩
  | 59 => ⟨S_, .i32⟩
  | 60 => ⟨S73728, .i32⟩
  | 61 => ⟨S73728, .i1⟩
  | 62 => ⟨S_, .i32⟩
  | 63 => ⟨S73728, .i32⟩
  | 64 => ⟨S73728, .i32⟩
  | 65 => ⟨S73728, .i32⟩
  | 66 => ⟨S73728x1, .i32⟩
  | 67 => ⟨S73728x2048, .f32⟩
  | 68 => ⟨S73728x1, .f32⟩
  | 69 => ⟨S73728x2048, .f32⟩
  | 70 => ⟨S73728x2048, .f32⟩
  | 71 => ⟨S_, .f32⟩
  | 72 => ⟨S8192x2048, .f32⟩
  | 73 => ⟨S73728x1, .i32⟩
  | 74 => ⟨S8192x2048, .f32⟩
  | 75 => ⟨S1x2048, .f32⟩
  | 76 => ⟨S8192x2048, .f32⟩
  | 77 => ⟨S8192x2048, .f32⟩
  | 78 => ⟨S8192x2048, .f32⟩
  | 79 => ⟨S2048x2048, .f32⟩
  | 80 => ⟨S8192x2048, .f32⟩
  | 81 => ⟨S8192, .i32⟩
  | 82 => ⟨S1x65536, .i32⟩
  | 83 => ⟨S65536, .i32⟩
  | 84 => ⟨S73728, .i32⟩
  | 85 => ⟨S1x65536, .i32⟩
  | 86 => ⟨S65536, .i32⟩
  | 87 => ⟨S73728, .i32⟩
  | 88 => ⟨S_, .f32⟩
  | 89 => ⟨S8192, .f32⟩
  | 90 => ⟨S_, .f32⟩
  | 91 => ⟨S73728, .f32⟩
  | 92 => ⟨S_, .i32⟩
  | 93 => ⟨S73728, .i32⟩
  | 94 => ⟨S73728, .i1⟩
  | 95 => ⟨S_, .i32⟩
  | 96 => ⟨S73728, .i32⟩
  | 97 => ⟨S73728, .i32⟩
  | 98 => ⟨S73728, .i32⟩
  | 99 => ⟨S73728x1, .i32⟩
  | 100 => ⟨S8192, .f32⟩
  | 101 => ⟨S_, .f32⟩
  | 102 => ⟨S8192, .f32⟩
  | 103 => ⟨S8192, .i1⟩
  | 104 => ⟨S8192, .f32⟩
  | 105 => ⟨S_, .f32⟩
  | 106 => ⟨S_, .f32⟩
  | 107 => ⟨S8192, .f32⟩
  | 108 => ⟨S8192, .f32⟩
  | 109 => ⟨S_, .i32⟩
  | 110 => ⟨S73728, .i32⟩
  | 111 => ⟨S73728, .i1⟩
  | 112 => ⟨S_, .i32⟩
  | 113 => ⟨S73728, .i32⟩
  | 114 => ⟨S73728, .i32⟩
  | 115 => ⟨S73728, .i32⟩
  | 116 => ⟨S73728x1, .i32⟩
  | 117 => ⟨S73728, .f32⟩
  | 118 => ⟨S_, .i32⟩
  | 119 => ⟨S73728, .i32⟩
  | 120 => ⟨S73728, .i1⟩
  | 121 => ⟨S_, .i32⟩
  | 122 => ⟨S73728, .i32⟩
  | 123 => ⟨S73728, .i32⟩
  | 124 => ⟨S73728, .i32⟩
  | 125 => ⟨S73728x1, .i32⟩
  | 126 => ⟨S73728, .f32⟩
  | 127 => ⟨S73728, .f32⟩
  | _ => ⟨S8192x256, .f32⟩

abbrev hbmTy0_1 (i : Nat) : BufTy := match i % 128 with
  | 0 => ⟨S_, .i32⟩
  | 1 => ⟨S73728, .i32⟩
  | 2 => ⟨S73728, .i1⟩
  | 3 => ⟨S_, .i32⟩
  | 4 => ⟨S73728, .i32⟩
  | 5 => ⟨S73728, .i32⟩
  | 6 => ⟨S73728, .i32⟩
  | 7 => ⟨S73728x1, .i32⟩
  | 8 => ⟨S73728x2048, .f32⟩
  | 9 => ⟨S73728x1, .f32⟩
  | 10 => ⟨S73728x2048, .f32⟩
  | 11 => ⟨S73728x2048, .f32⟩
  | 12 => ⟨S_, .f32⟩
  | 13 => ⟨S8192x2048, .f32⟩
  | 14 => ⟨S73728x1, .i32⟩
  | 15 => ⟨S8192x2048, .f32⟩
  | 16 => ⟨S1x2048, .f32⟩
  | 17 => ⟨S8192x2048, .f32⟩
  | 18 => ⟨S8192x2048, .f32⟩
  | 19 => ⟨S8192x2048, .f32⟩
  | 20 => ⟨S2048x1024, .f32⟩
  | 21 => ⟨S8192x1024, .f32⟩
  | 22 => ⟨S8192, .i32⟩
  | 23 => ⟨S1x65536, .i32⟩
  | 24 => ⟨S65536, .i32⟩
  | 25 => ⟨S73728, .i32⟩
  | 26 => ⟨S1x65536, .i32⟩
  | 27 => ⟨S65536, .i32⟩
  | 28 => ⟨S73728, .i32⟩
  | 29 => ⟨S_, .f32⟩
  | 30 => ⟨S8192, .f32⟩
  | 31 => ⟨S_, .f32⟩
  | 32 => ⟨S73728, .f32⟩
  | 33 => ⟨S_, .i32⟩
  | 34 => ⟨S73728, .i32⟩
  | 35 => ⟨S73728, .i1⟩
  | 36 => ⟨S_, .i32⟩
  | 37 => ⟨S73728, .i32⟩
  | 38 => ⟨S73728, .i32⟩
  | 39 => ⟨S73728, .i32⟩
  | 40 => ⟨S73728x1, .i32⟩
  | 41 => ⟨S8192, .f32⟩
  | 42 => ⟨S_, .f32⟩
  | 43 => ⟨S8192, .f32⟩
  | 44 => ⟨S8192, .i1⟩
  | 45 => ⟨S8192, .f32⟩
  | 46 => ⟨S_, .f32⟩
  | 47 => ⟨S_, .f32⟩
  | 48 => ⟨S8192, .f32⟩
  | 49 => ⟨S8192, .f32⟩
  | 50 => ⟨S_, .i32⟩
  | 51 => ⟨S73728, .i32⟩
  | 52 => ⟨S73728, .i1⟩
  | 53 => ⟨S_, .i32⟩
  | 54 => ⟨S73728, .i32⟩
  | 55 => ⟨S73728, .i32⟩
  | 56 => ⟨S73728, .i32⟩
  | 57 => ⟨S73728x1, .i32⟩
  | 58 => ⟨S73728, .f32⟩
  | 59 => ⟨S_, .i32⟩
  | 60 => ⟨S73728, .i32⟩
  | 61 => ⟨S73728, .i1⟩
  | 62 => ⟨S_, .i32⟩
  | 63 => ⟨S73728, .i32⟩
  | 64 => ⟨S73728, .i32⟩
  | 65 => ⟨S73728, .i32⟩
  | 66 => ⟨S73728x1, .i32⟩
  | 67 => ⟨S73728, .f32⟩
  | 68 => ⟨S73728, .f32⟩
  | 69 => ⟨S_, .i32⟩
  | 70 => ⟨S73728, .i32⟩
  | 71 => ⟨S73728, .i1⟩
  | 72 => ⟨S_, .i32⟩
  | 73 => ⟨S73728, .i32⟩
  | 74 => ⟨S73728, .i32⟩
  | 75 => ⟨S73728, .i32⟩
  | 76 => ⟨S73728x1, .i32⟩
  | 77 => ⟨S73728x1024, .f32⟩
  | 78 => ⟨S73728x1, .f32⟩
  | 79 => ⟨S73728x1024, .f32⟩
  | 80 => ⟨S73728x1024, .f32⟩
  | 81 => ⟨S_, .f32⟩
  | 82 => ⟨S8192x1024, .f32⟩
  | 83 => ⟨S73728x1, .i32⟩
  | 84 => ⟨S8192x1024, .f32⟩
  | 85 => ⟨S1x1024, .f32⟩
  | 86 => ⟨S8192x1024, .f32⟩
  | 87 => ⟨S8192x1024, .f32⟩
  | 88 => ⟨S8192x1024, .f32⟩
  | 89 => ⟨S1024x768, .f32⟩
  | 90 => ⟨S8192x768, .f32⟩
  | 91 => ⟨S1x768, .f32⟩
  | 92 => ⟨S8192x768, .f32⟩
  | 93 => ⟨S8192x768, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_16 : Ref sig .tc := ⟨.hbm, 105, rfl⟩
abbrev main_call1_v0 : Ref sig .tc := ⟨.hbm, 106, rfl⟩
abbrev main_call1_v1 : Ref sig .tc := ⟨.hbm, 107, rfl⟩
abbrev main_v75 : Ref sig .tc := ⟨.hbm, 108, rfl⟩
abbrev main_c_17 : Ref sig .tc := ⟨.hbm, 109, rfl⟩
abbrev main_v76 : Ref sig .tc := ⟨.hbm, 110, rfl⟩
abbrev main_v77 : Ref sig .tc := ⟨.hbm, 111, rfl⟩
abbrev main_c_18 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_19 : Ref sig .tc := ⟨.hbm, 118, rfl⟩
abbrev main_v83 : Ref sig .tc := ⟨.hbm, 119, rfl⟩
abbrev main_v84 : Ref sig .tc := ⟨.hbm, 120, rfl⟩
abbrev main_c_20 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_21 : Ref sig .tc := ⟨.hbm, 128, rfl⟩
abbrev main_v91 : Ref sig .tc := ⟨.hbm, 129, rfl⟩
abbrev main_v92 : Ref sig .tc := ⟨.hbm, 130, rfl⟩
abbrev main_c_22 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_23 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_24 : Ref sig .tc := ⟨.hbm, 157, rfl⟩
abbrev main_v117 : Ref sig .tc := ⟨.hbm, 158, rfl⟩
abbrev main_cst_25 : Ref sig .tc := ⟨.hbm, 159, rfl⟩
abbrev main_v118 : Ref sig .tc := ⟨.hbm, 160, rfl⟩
abbrev main_c_26 : Ref sig .tc := ⟨.hbm, 161, rfl⟩
abbrev main_v119 : Ref sig .tc := ⟨.hbm, 162, rfl⟩
abbrev main_v120 : Ref sig .tc := ⟨.hbm, 163, rfl⟩
abbrev main_c_27 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_28 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_29 : Ref sig .tc := ⟨.hbm, 174, rfl⟩
abbrev main_call2_v0 : Ref sig .tc := ⟨.hbm, 175, rfl⟩
abbrev main_call2_v1 : Ref sig .tc := ⟨.hbm, 176, rfl⟩
abbrev main_v129 : Ref sig .tc := ⟨.hbm, 177, rfl⟩
abbrev main_c_30 : Ref sig .tc := ⟨.hbm, 178, rfl⟩
abbrev main_v130 : Ref sig .tc := ⟨.hbm, 179, rfl⟩
abbrev main_v131 : Ref sig .tc := ⟨.hbm, 180, rfl⟩
abbrev main_c_31 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_c_32 : Ref sig .tc := ⟨.hbm, 187, rfl⟩
abbrev main_v137 : Ref sig .tc := ⟨.hbm, 188, rfl⟩
abbrev main_v138 : Ref sig .tc := ⟨.hbm, 189, rfl⟩
abbrev main_c_33 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_c_34 : Ref sig .tc := ⟨.hbm, 197, rfl⟩
abbrev main_v145 : Ref sig .tc := ⟨.hbm, 198, rfl⟩
abbrev main_v146 : Ref sig .tc := ⟨.hbm, 199, rfl⟩
abbrev main_c_35 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_36 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩

abbrev nD : Nat := 1
abbrev τ : Topo := Topo.v7x

variable {F : FTy → Type} [FloatOps F]

class Facts₀ : Prop where
  transposes_S2048x256_S256x2048_1_0 : S2048x256.Transposes [1, 0] S256x2048
  slices_S2x65536_S1x65536_0_0 : S2x65536.Slices ![0, 0] S1x65536
  shapeCasts_S1x65536_S65536 : S1x65536.ShapeCasts S65536
  concatenates_S65536_S8192_S73728_d0 : Shape.Concatenates [S65536, S8192] S73728 0
  slices_S2x65536_S1x65536_1_0 : S2x65536.Slices ![1, 0] S1x65536
  bcast_S_S8192 : S_.BroadcastsInDim S8192 (![] : Fin 0 → Fin S8192.rank)
  bcast_S_S73728 : S_.BroadcastsInDim S73728 (![] : Fin 0 → Fin S73728.rank)
  bcast_S73728_S73728x1_0 : S73728.BroadcastsInDim S73728x1 (![0] : Fin 1 → Fin S73728x1.rank)
  bcast_S73728x1_S73728x2048_0_1 : S73728x1.BroadcastsInDim S73728x2048 (![0, 1] : Fin 2 → Fin S73728x2048.rank)
  bcast_S_S8192x2048 : S_.BroadcastsInDim S8192x2048 (![] : Fin 0 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S2048x2048_S2048x2048_1_0 : S2048x2048.Transposes [1, 0] S2048x2048
  transposes_S1024x2048_S2048x1024_1_0 : S1024x2048.Transposes [1, 0] S2048x1024
  bcast_S73728x1_S73728x1024_0_1 : S73728x1.BroadcastsInDim S73728x1024 (![0, 1] : Fin 2 → Fin S73728x1024.rank)
  bcast_S_S8192x1024 : S_.BroadcastsInDim S8192x1024 (![] : Fin 0 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S768x1024_S1024x768_1_0 : S768x1024.Transposes [1, 0] S1024x768
  bcast_S768_S1x768_1 : S768.BroadcastsInDim S1x768 (![1] : Fin 1 → Fin S1x768.rank)
  bcast_S1x768_S8192x768_0_1 : S1x768.BroadcastsInDim S8192x768 (![0, 1] : Fin 2 → Fin S8192x768.rank)
  dot_S8192x256_S256x2048_S8192x2048_1_0_0_1_n_n_wf : DotDims.WF S8192x256 S256x2048 S8192x2048 [1] [0] [0] [1] [] []
  scatter_S8192_S73728x1_S73728_n_0_0_1_wf : ScatterDims.WF S8192 S73728x1 S73728 [] [0] [0] 1
  gather_S8192_S73728x1_S73728_n_0_n_n_0_1_1_wf : GatherDims.WF S8192 S73728x1 S73728 [] [0] [] [0] [] 1 ![1]
  gather_S8192x2048_S73728x1_S73728x2048_1_0_n_n_0_1_12048_wf : GatherDims.WF S8192x2048 S73728x1 S73728x2048 [1] [0] [] [0] [] 1 ![1, 2048]
  scatter_S8192x2048_S73728x1_S73728x2048_1_0_0_1_wf : ScatterDims.WF S8192x2048 S73728x1 S73728x2048 [1] [0] [0] 1
  dot_S8192x2048_S2048x2048_S8192x2048_1_0_0_1_n_n_wf : DotDims.WF S8192x2048 S2048x2048 S8192x2048 [1] [0] [0] [1] [] []
  dot_S8192x2048_S2048x1024_S8192x1024_1_0_0_1_n_n_wf : DotDims.WF S8192x2048 S2048x1024 S8192x1024 [1] [0] [0] [1] [] []
  gather_S8192x1024_S73728x1_S73728x1024_1_0_n_n_0_1_11024_wf : GatherDims.WF S8192x1024 S73728x1 S73728x1024 [1] [0] [] [0] [] 1 ![1, 1024]
  scatter_S8192x1024_S73728x1_S73728x1024_1_0_0_1_wf : ScatterDims.WF S8192x1024 S73728x1 S73728x1024 [1] [0] [0] 1
  dot_S8192x1024_S1024x768_S8192x768_1_0_0_1_n_n_wf : DotDims.WF S8192x1024 S1024x768 S8192x768 [1] [0] [0] [1] [] []

variable [Facts₀]

def dot_S8192x256_S256x2048_S8192x2048_1_0_0_1_n_n : DotDims S8192x256 S256x2048 S8192x2048 where
  lhsContracting := [1]
  rhsContracting := [0]
  lhsNonContracting := [0]
  rhsNonContracting := [1]
  lhsBatch := []
  rhsBatch := []
  wf := dot_S8192x256_S256x2048_S8192x2048_1_0_0_1_n_n_wf
def scatter_S8192_S73728x1_S73728_n_0_0_1 : ScatterDims S8192 S73728x1 S73728 where
  updateWindowDims := []
  insertedWindowDims := [0]
  scatterDimsToOperandDims := [0]
  indexVectorDim := 1
  wf := scatter_S8192_S73728x1_S73728_n_0_0_1_wf
def gather_S8192_S73728x1_S73728_n_0_n_n_0_1_1 : GatherDims S8192 S73728x1 S73728 where
  offsetDims := []
  collapsedSliceDims := [0]
  operandBatchingDims := []
  startIndicesBatchingDims := []
  startIndexMap := [0]
  indexVectorDim := 1
  sliceSizes := ![1]
  wf := gather_S8192_S73728x1_S73728_n_0_n_n_0_1_1_wf
def gather_S8192x2048_S73728x1_S73728x2048_1_0_n_n_0_1_12048 : GatherDims S8192x2048 S73728x1 S73728x2048 where
  offsetDims := [1]
  collapsedSliceDims := [0]
  operandBatchingDims := []
  startIndicesBatchingDims := []
  startIndexMap := [0]
  indexVectorDim := 1
  sliceSizes := ![1, 2048]
  wf := gather_S8192x2048_S73728x1_S73728x2048_1_0_n_n_0_1_12048_wf
def scatter_S8192x2048_S73728x1_S73728x2048_1_0_0_1 : ScatterDims S8192x2048 S73728x1 S73728x2048 where
  updateWindowDims := [1]
  insertedWindowDims := [0]
  scatterDimsToOperandDims := [0]
  indexVectorDim := 1
  wf := scatter_S8192x2048_S73728x1_S73728x2048_1_0_0_1_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def gather_S8192x1024_S73728x1_S73728x1024_1_0_n_n_0_1_11024 : GatherDims S8192x1024 S73728x1 S73728x1024 where
  offsetDims := [1]
  collapsedSliceDims := [0]
  operandBatchingDims := []
  startIndicesBatchingDims := []
  startIndexMap := [0]
  indexVectorDim := 1
  sliceSizes := ![1, 1024]
  wf := gather_S8192x1024_S73728x1_S73728x1024_1_0_n_n_0_1_11024_wf
def scatter_S8192x1024_S73728x1_S73728x1024_1_0_0_1 : ScatterDims S8192x1024 S73728x1 S73728x1024 where
  updateWindowDims := [1]
  insertedWindowDims := [0]
  scatterDimsToOperandDims := [0]
  indexVectorDim := 1
  wf := scatter_S8192x1024_S73728x1_S73728x1024_1_0_0_1_wf
def dot_S8192x1024_S1024x768_S8192x768_1_0_0_1_n_n : DotDims S8192x1024 S1024x768 S8192x768 where
  lhsContracting := [1]
  rhsContracting := [0]
  lhsNonContracting := [0]
  rhsNonContracting := [1]
  lhsBatch := []
  rhsBatch := []
  wf := dot_S8192x1024_S1024x768_S8192x768_1_0_0_1_n_n_wf

class Facts : Prop extends Facts₀ where

variable [Facts]
-- ==== Proof.LibCat.lean ====
/-
  Two arrays joined along an axis, named as a function of the two arrays.

  The join of a list of arrays carries a side condition on the list's shapes. Stated over the list itself, that condition
  stands in the way of rewriting the arrays inside the list; stated over the two shapes, it does not. The two spellings
  are the same function by definition. With it, what a buffer holds after a line of host operations can be read in one
  pass even when the line joins arrays and calls functions.
-/
import Idealize.ShloMosaic.Lib.StableHlo.Run

noncomputable section

namespace Cert.LibCat

open Idealize.ShloMosaic Idealize.ShloMosaic.StableHlo

/-- Two arrays joined along axis `a` of the result shape `t`, the side condition over the two shapes only. -/
def cat2 {α : Type} (t : Shape) (a : Fin t.rank) (s1 s2 : Shape) (h : Shape.Concatenates [s1, s2] t a)
    (x1 : s1.Idx → α) (x2 : s2.Idx → α) : t.Idx → α :=
  concatenate t a [⟨s1, x1⟩, ⟨s2, x2⟩] h

/-- A two-piece join is `cat2` of its pieces. -/
theorem cat2_fold {α : Type} (t : Shape) (a : Fin t.rank) (s1 s2 : Shape) (h : Shape.Concatenates [s1, s2] t a)
    (x1 : s1.Idx → α) (x2 : s2.Idx → α) : concatenate t a [⟨s1, x1⟩, ⟨s2, x2⟩] h = cat2 t a s1 s2 h x1 x2 := rfl

end Cert.LibCat

/-- What a buffer holds after a line of host operations, in one rewriting pass that also reads through two-piece
    joins: each operation's result at its own buffer is its function's value, at any other buffer what was there. An
    operation of a called function carries its operands from their buffers' types to the values' types and its result
    back; at a literal buffer the two types are one, and that transport is the identity. -/
macro "after_results_cat" : tactic =>
  `(tactic| (simp (disch := decide) only [Idealize.ShloMosaic.StableHlo.after_cons, Idealize.ShloMosaic.StableHlo.after_nil, Cert.LibCat.cat2_fold, cast_eq,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

end
-- ==== Proof.KernelKept.lean ====
/-
  The argument arrays between the regions.

  The kernel program reads each weight, each bias and the edge list long after it was launched: the second weight when
  the second region is entered, the third bias in the third layer, and so on. Between the launch and that read stand
  stretches of host operations and regions. A host operation writes its own result buffer and nothing else, and no
  result buffer is an argument, so a stretch of glue leaves every argument array as it found it; a region rewrites its
  output array only, and the arguments read later are not windows of the earlier regions. So at the boundary where it is
  read each argument array is as launched.
-/
import proofs.«133313_j6708738916816_1_alg».proof.Proof.Gen.KernelIdeal.Frame
import proofs.«133313_j6708738916816_1_alg».proof.Proof.LibCat

set_option maxRecDepth 16384
set_option Elab.async false

noncomputable section

namespace Cert.KernelIdeal.Kept

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first stretch of glue writes no argument array -/

/-- The first glue leaves the edge list as it found it: every one of its operations writes its own result buffer only. -/
theorem glue1_keeps_arg1 (c : Dev nD) : W4 m ρ c (Proc.devRef .tc main_arg1) = W1 m ρ c (Proc.devRef .tc main_arg1) := by
  show StableHlo.after hostOps1_2 (StableHlo.after hostOps1_1 (StableHlo.after hostOps1 (W1 m ρ c))) (Proc.devRef .tc main_arg1) = _
  after_results_cat

/-- The first glue leaves the second weight as it found it: every one of its operations writes its own result buffer only. -/
theorem glue1_keeps_arg4 (c : Dev nD) : W4 m ρ c (Proc.devRef .tc main_arg4) = W1 m ρ c (Proc.devRef .tc main_arg4) := by
  show StableHlo.after hostOps1_2 (StableHlo.after hostOps1_1 (StableHlo.after hostOps1 (W1 m ρ c))) (Proc.devRef .tc main_arg4) = _
  after_results_cat

/-- The first glue leaves the second bias as it found it: every one of its operations writes its own result buffer only. -/
theorem glue1_keeps_arg5 (c : Dev nD) : W4 m ρ c (Proc.devRef .tc main_arg5) = W1 m ρ c (Proc.devRef .tc main_arg5) := by
  show StableHlo.after hostOps1_2 (StableHlo.after hostOps1_1 (StableHlo.after hostOps1 (W1 m ρ c))) (Proc.devRef .tc main_arg5) = _
  after_results_cat

/-- The first glue leaves the third weight as it found it: every one of its operations writes its own result buffer only. -/
theorem glue1_keeps_arg6 (c : Dev nD) : W4 m ρ c (Proc.devRef .tc main_arg6) = W1 m ρ c (Proc.devRef .tc main_arg6) := by
  show StableHlo.after hostOps1_2 (StableHlo.after hostOps1_1 (StableHlo.after hostOps1 (W1 m ρ c))) (Proc.devRef .tc main_arg6) = _
  after_results_cat

/-- The first glue leaves the third bias as it found it: every one of its operations writes its own result buffer only. -/
theorem glue1_keeps_arg7 (c : Dev nD) : W4 m ρ c (Proc.devRef .tc main_arg7) = W1 m ρ c (Proc.devRef .tc main_arg7) := by
  show StableHlo.after hostOps1_2 (StableHlo.after hostOps1_1 (StableHlo.after hostOps1 (W1 m ρ c))) (Proc.devRef .tc main_arg7) = _
  after_results_cat

/-- The first glue leaves the output weight as it found it: every one of its operations writes its own result buffer only. -/
theorem glue1_keeps_arg8 (c : Dev nD) : W4 m ρ c (Proc.devRef .tc main_arg8) = W1 m ρ c (Proc.devRef .tc main_arg8) := by
  show StableHlo.after hostOps1_2 (StableHlo.after hostOps1_1 (StableHlo.after hostOps1 (W1 m ρ c))) (Proc.devRef .tc main_arg8) = _
  after_results_cat

/-- The first glue leaves the output bias as it found it: every one of its operations writes its own result buffer only. -/
theorem glue1_keeps_arg9 (c : Dev nD) : W4 m ρ c (Proc.devRef .tc main_arg9) = W1 m ρ c (Proc.devRef .tc main_arg9) := by
  show StableHlo.after hostOps1_2 (StableHlo.after hostOps1_1 (StableHlo.after hostOps1 (W1 m ρ c))) (Proc.devRef .tc main_arg9) = _
  after_results_cat

/-! ## The second stretch of glue writes no argument array -/

/-- The second glue leaves the edge list as it found it: every one of its operations writes its own result buffer only. -/
theorem glue2_keeps_arg1 (c : Dev nD) : W8 m ρ c (Proc.devRef .tc main_arg1) = W5 m ρ c (Proc.devRef .tc main_arg1) := by
  show StableHlo.after hostOps2_2 (StableHlo.after hostOps2_1 (StableHlo.after hostOps2 (W5 m ρ c))) (Proc.devRef .tc main_arg1) = _
  after_results_cat

/-- The second glue leaves the third weight as it found it: every one of its operations writes its own result buffer only. -/
theorem glue2_keeps_arg6 (c : Dev nD) : W8 m ρ c (Proc.devRef .tc main_arg6) = W5 m ρ c (Proc.devRef .tc main_arg6) := by
  show StableHlo.after hostOps2_2 (StableHlo.after hostOps2_1 (StableHlo.after hostOps2 (W5 m ρ c))) (Proc.devRef .tc main_arg6) = _
  after_results_cat

/-- The second glue leaves the third bias as it found it: every one of its operations writes its own result buffer only. -/
theorem glue2_keeps_arg7 (c : Dev nD) : W8 m ρ c (Proc.devRef .tc main_arg7) = W5 m ρ c (Proc.devRef .tc main_arg7) := by
  show StableHlo.after hostOps2_2 (StableHlo.after hostOps2_1 (StableHlo.after hostOps2 (W5 m ρ c))) (Proc.devRef .tc main_arg7) = _
  after_results_cat

/-- The second glue leaves the output weight as it found it: every one of its operations writes its own result buffer only. -/
theorem glue2_keeps_arg8 (c : Dev nD) : W8 m ρ c (Proc.devRef .tc main_arg8) = W5 m ρ c (Proc.devRef .tc main_arg8) := by
  show StableHlo.after hostOps2_2 (StableHlo.after hostOps2_1 (StableHlo.after hostOps2 (W5 m ρ c))) (Proc.devRef .tc main_arg8) = _
  after_results_cat

/-- The second glue leaves the output bias as it found it: every one of its operations writes its own result buffer only. -/
theorem glue2_keeps_arg9 (c : Dev nD) : W8 m ρ c (Proc.devRef .tc main_arg9) = W5 m ρ c (Proc.devRef .tc main_arg9) := by
  show StableHlo.after hostOps2_2 (StableHlo.after hostOps2_1 (StableHlo.after hostOps2 (W5 m ρ c))) (Proc.devRef .tc main_arg9) = _
  after_results_cat

/-! ## The third stretch of glue writes no argument array -/

/-- The third glue leaves the output weight as it found it: every one of its operations writes its own result buffer only. -/
theorem glue3_keeps_arg8 (c : Dev nD) : W12 m ρ c (Proc.devRef .tc main_arg8) = W9 m ρ c (Proc.devRef .tc main_arg8) := by
  show StableHlo.after hostOps3_2 (StableHlo.after hostOps3_1 (StableHlo.after hostOps3 (W9 m ρ c))) (Proc.devRef .tc main_arg8) = _
  after_results_cat

/-- The third glue leaves the output bias as it found it: every one of its operations writes its own result buffer only. -/
theorem glue3_keeps_arg9 (c : Dev nD) : W12 m ρ c (Proc.devRef .tc main_arg9) = W9 m ρ c (Proc.devRef .tc main_arg9) := by
  show StableHlo.after hostOps3_2 (StableHlo.after hostOps3_1 (StableHlo.after hostOps3 (W9 m ρ c))) (Proc.devRef .tc main_arg9) = _
  after_results_cat

/-! ## Each argument at the boundary where it is read -/

/-- The edge list is as launched when the first layer reads it: the first region does not hold it. -/
theorem W1_arg1 (c : Dev nD) : W1 m ρ c (Proc.devRef .tc main_arg1) = m ((c : Thread nD τ).loc main_arg1) :=
  (W1_of_ne m ρ c main_arg1 (by decide)).trans rfl

/-- The first bias is as launched when the first layer reads it. -/
theorem W1_arg3 (c : Dev nD) : W1 m ρ c (Proc.devRef .tc main_arg3) = m ((c : Thread nD τ).loc main_arg3) :=
  (W1_of_ne m ρ c main_arg3 (by decide)).trans rfl

/-- The second weight is as launched when the second region reads it. -/
theorem W4_arg4 (c : Dev nD) : W4 m ρ c (Proc.devRef .tc main_arg4) = m ((c : Thread nD τ).loc main_arg4) :=
  (glue1_keeps_arg4 m ρ c).trans ((W1_of_ne m ρ c main_arg4 (by decide)).trans rfl)

/-- The edge list is as launched when the second layer reads it. -/
theorem W5_arg1 (c : Dev nD) : W5 m ρ c (Proc.devRef .tc main_arg1) = m ((c : Thread nD τ).loc main_arg1) :=
  (W5_of_ne m ρ c main_arg1 (by decide)).trans ((glue1_keeps_arg1 m ρ c).trans ((W1_of_ne m ρ c main_arg1 (by decide)).trans rfl))

/-- The second bias is as launched when the second layer reads it. -/
theorem W5_arg5 (c : Dev nD) : W5 m ρ c (Proc.devRef .tc main_arg5) = m ((c : Thread nD τ).loc main_arg5) :=
  (W5_of_ne m ρ c main_arg5 (by decide)).trans ((glue1_keeps_arg5 m ρ c).trans ((W1_of_ne m ρ c main_arg5 (by decide)).trans rfl))

/-- The third weight is as launched when the third region reads it. -/
theorem W8_arg6 (c : Dev nD) : W8 m ρ c (Proc.devRef .tc main_arg6) = m ((c : Thread nD τ).loc main_arg6) :=
  (glue2_keeps_arg6 m ρ c).trans ((W5_of_ne m ρ c main_arg6 (by decide)).trans ((glue1_keeps_arg6 m ρ c).trans ((W1_of_ne m ρ c main_arg6 (by decide)).trans rfl)))

/-- The edge list is as launched when the third layer reads it. -/
theorem W9_arg1 (c : Dev nD) : W9 m ρ c (Proc.devRef .tc main_arg1) = m ((c : Thread nD τ).loc main_arg1) :=
  (W9_of_ne m ρ c main_arg1 (by decide)).trans ((glue2_keeps_arg1 m ρ c).trans ((W5_of_ne m ρ c main_arg1 (by decide)).trans ((glue1_keeps_arg1 m ρ c).trans ((W1_of_ne m ρ c main_arg1 (by decide)).trans rfl))))

/-- The third bias is as launched when the third layer reads it. -/
theorem W9_arg7 (c : Dev nD) : W9 m ρ c (Proc.devRef .tc main_arg7) = m ((c : Thread nD τ).loc main_arg7) :=
  (W9_of_ne m ρ c main_arg7 (by decide)).trans ((glue2_keeps_arg7 m ρ c).trans ((W5_of_ne m ρ c main_arg7 (by decide)).trans ((glue1_keeps_arg7 m ρ c).trans ((W1_of_ne m ρ c main_arg7 (by decide)).trans rfl))))

/-- The output weight is as launched when the fourth region reads it. -/
theorem W12_arg8 (c : Dev nD) : W12 m ρ c (Proc.devRef .tc main_arg8) = m ((c : Thread nD τ).loc main_arg8) :=
  (glue3_keeps_arg8 m ρ c).trans ((W9_of_ne m ρ c main_arg8 (by decide)).trans ((glue2_keeps_arg8 m ρ c).trans ((W5_of_ne m ρ c main_arg8 (by decide)).trans ((glue1_keeps_arg8 m ρ c).trans ((W1_of_ne m ρ c main_arg8 (by decide)).trans rfl)))))

/-- The output bias is as launched when the last step reads it. -/
theorem W13_arg9 (c : Dev nD) : W13 m ρ c (Proc.devRef .tc main_arg9) = m ((c : Thread nD τ).loc main_arg9) :=
  (W13_of_ne m ρ c main_arg9 (by decide)).trans ((glue3_keeps_arg9 m ρ c).trans ((W9_of_ne m ρ c main_arg9 (by decide)).trans ((glue2_keeps_arg9 m ρ c).trans ((W5_of_ne m ρ c main_arg9 (by decide)).trans ((glue1_keeps_arg9 m ρ c).trans ((W1_of_ne m ρ c main_arg9 (by decide)).trans rfl))))))

end Cert.KernelIdeal.Kept

end
-- ==== Proof.LibProduct.lean ====
/-
  A matrix product read at an entry, for any sizes.

  For an M by K left factor and a K by N right factor contracted along the left factor's columns and the right
  factor's rows (no batch axis), the operand indices at the output entry (a, b) and the contraction index c are
  (a, c) and (c, b).  So the entry (a, b) of the product is ∑ c, l (a, c) · r (c, b): for the matrix unit's product
  into a zero accumulator and for the host's general product alike.  Row a of the product depends on row a of the
  left factor only.
-/
import Idealize.ShloMosaic.PureOps.Ideal
import Idealize.ShloMosaic.PureOps.Ideal.Laws
import Idealize.ShloMosaic.Lib.ValueIdx

noncomputable section

namespace Cert.LibProduct

open Idealize.ShloMosaic Idealize.ShloMosaic.ValueIdx

variable {M K N : ℕ}

/-- The row-by-column dimension numbers: the left factor's columns against the right factor's rows, no batch axis. -/
abbrev rowCol (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate at the output entry (a, b) is a, whatever the contraction index. -/
theorem lhs_row (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).lhsIdx i q 0).val = (i 0).val := by
  unfold DotDims.lhsIdx
  rw [dif_neg (by simp), dif_pos (by simp)]
  rfl

/-- The right operand's column coordinate at the output entry (a, b) is b, whatever the contraction index. -/
theorem rhs_col (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).rhsIdx i q 1).val = (i 1).val := by
  unfold DotDims.rhsIdx
  rw [dif_neg (by simp), dif_pos (by simp)]
  rfl

/-- The sum over the contraction index of the products of the operands' entries is the sum over the shared
    coordinate c of l (a, c) · r (c, b). -/
theorem sum_products (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (a : Fin M) (b : Fin N) :
    ∑ k : (rowCol wf).contr.Idx, l ((rowCol wf).lhsIdx (ix2 a b) k) * r ((rowCol wf).rhsIdx (ix2 a b) k)
      = ∑ c : Fin K, l (ix2 a c) * r (ix2 c b) := by
  rw [← Equiv.sum_comp (contrEquiv1 (rowCol wf) K rfl rfl).symm]
  refine Finset.sum_congr rfl fun c _ => ?_
  have hk := contrEquiv1_symm_val (rowCol wf) K rfl rfl c
  have el : (rowCol wf).lhsIdx (ix2 a b) ((contrEquiv1 (rowCol wf) K rfl rfl).symm c) = ix2 a c := funext fun ax => Fin.ext (by
    match ax with
    | ⟨0, _⟩ => exact lhs_row wf _ _
    | ⟨1, _⟩ => exact ((rowCol wf).lhsIdx_val_of_single rfl (ix2 a b) _).trans hk)
  have er : (rowCol wf).rhsIdx (ix2 a b) ((contrEquiv1 (rowCol wf) K rfl rfl).symm c) = ix2 c b := funext fun ax => Fin.ext (by
    match ax with
    | ⟨0, _⟩ => exact ((rowCol wf).rhsIdx_val_of_single rfl (ix2 a b) _).trans hk
    | ⟨1, _⟩ => exact rhs_col wf _ _)
  rw [el, er]

/-- THE MATRIX UNIT'S PRODUCT INTO A ZERO ACCUMULATOR AT AN ENTRY, for any record of dimension numbers with the
    row-by-column axis lists. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 a c) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products wf l r a b

/-- THE HOST'S GENERAL PRODUCT AT AN ENTRY, for any such record. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ c : Fin K, l (ix2 a c) * r (ix2 c b) := by
  obtain ⟨lc, rc, ln, rn, lb, rb, wf⟩ := d
  dsimp only at h1 h2 h3 h4 h5 h6
  subst h1 h2 h3 h4 h5 h6
  simp only [Host.dotGeneral]
  rw [Ideal.dotGeneral_apply]
  exact sum_products wf l r a b

end Cert.LibProduct

end
-- ==== Proof.LibRowRow.lean ====
/-
  Entry (a, b) of a product contracted along the second axis of BOTH factors — an M×K array against an N×K array,
  that is x · Wᵀ — computed by the matrix unit into a zero accumulator, read over the extended reals: it is the sum
  over the shared coordinate c of l (a, c) · r (b, c), at any sizes.
-/
import Idealize.ShloMosaic.PureOps.Ideal
import Idealize.ShloMosaic.PureOps.Ideal.Laws
import Idealize.ShloMosaic.Lib.ValueIdx

noncomputable section

namespace Cert.LibRowRow

open Idealize.ShloMosaic Idealize.ShloMosaic.ValueIdx

variable {M K N : ℕ}

/-- The row-by-row dimension numbers: the left factor's columns against the right factor's columns, no batch axis. -/
abbrev rowRow (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

/-- The left operand's row coordinate at the output entry (a, b) is a, whatever the contraction index. -/
theorem lhs_row (wf : DotDims.WF ⟨2, ![M, K]⟩ ⟨2, ![N, K]⟩ ⟨2, ![M, N]⟩ [1] [1] [0] [0] [] [])
    (i : (⟨2, ![M, N]⟩ : Shape).Idx) (q : (rowRow wf).contr.Idx) : ((rowRow wf).lhsIdx i q 0).val = (i 0).val := by
  unfold DotDims.lhsIdx
  rw [dif_neg (by simp), dif_pos (by simp)]
  rfl

/-- The right operand's row coordinate at the output entry (a, b) is b, whatever the contraction index. -/
theorem rhs_row (wf : DotDims.WF ⟨2, ![M, K]⟩ ⟨2, ![N, K]⟩ ⟨2, ![M, N]⟩ [1] [1] [0] [0] [] [])
    (i : (⟨2, ![M, N]⟩ : Shape).Idx) (q : (rowRow wf).contr.Idx) : ((rowRow wf).rhsIdx i q 0).val = (i 1).val := by
  unfold DotDims.rhsIdx
  rw [dif_neg (by simp), dif_pos (by simp)]
  rfl

/-- The sum over the contraction index of the products of the operands' entries is the sum over the shared
    coordinate c of l (a, c) · r (b, c). -/
theorem sum_products (wf : DotDims.WF ⟨2, ![M, K]⟩ ⟨2, ![N, K]⟩ ⟨2, ![M, N]⟩ [1] [1] [0] [0] [] [])
    (l : (⟨2, ![M, K]⟩ : Shape).Idx → EReal) (r : (⟨2, ![N, K]⟩ : Shape).Idx → EReal) (a : Fin M) (b : Fin N) :
    ∑ k : (rowRow wf).contr.Idx, l ((rowRow wf).lhsIdx (ix2 a b) k) * r ((rowRow wf).rhsIdx (ix2 a b) k)
      = ∑ c : Fin K, l (ix2 a c) * r (ix2 b c) := by
  rw [← Equiv.sum_comp (contrEquiv1 (rowRow wf) K rfl rfl).symm]
  refine Finset.sum_congr rfl fun c _ => ?_
  have hk := contrEquiv1_symm_val (rowRow wf) K rfl rfl c
  have el : (rowRow wf).lhsIdx (ix2 a b) ((contrEquiv1 (rowRow wf) K rfl rfl).symm c) = ix2 a c := funext fun ax => Fin.ext (by
    match ax with
    | ⟨0, _⟩ => exact lhs_row wf _ _
    | ⟨1, _⟩ => exact ((rowRow wf).lhsIdx_val_of_single rfl (ix2 a b) _).trans hk)
  have er : (rowRow wf).rhsIdx (ix2 a b) ((contrEquiv1 (rowRow wf) K rfl rfl).symm c) = ix2 b c := funext fun ax => Fin.ext (by
    match ax with
    | ⟨0, _⟩ => exact rhs_row wf _ _
    | ⟨1, _⟩ => exact ((rowRow wf).rhsIdx_val_of_single rfl (ix2 a b) _).trans hk)
  rw [el, er]

/-- THE MATRIX UNIT'S PRODUCT x · Wᵀ INTO A ZERO ACCUMULATOR AT AN ENTRY, for any record of dimension numbers with the
    row-by-row axis lists. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (l : FVec Ideal ⟨2, ![M, K]⟩ φ₁) (r : FVec Ideal ⟨2, ![N, K]⟩ φ₂) (a : Fin M) (b : Fin N) :
    FloatOps.matmul d prec l r (constant ⟨2, ![M, N]⟩ .f32 0x00000000#32) (ix2 a b) = ∑ c : Fin K, l (ix2 a c) * r (ix2 b c) := by
  obtain ⟨lc, rc, ln, rn, lb, rb, wf⟩ := d
  dsimp only at h1 h2 h3 h4 h5 h6
  subst h1 h2 h3 h4 h5 h6
  rw [Ideal.matmul_constant_zero_apply]
  exact sum_products wf l r a b

end Cert.LibRowRow

end
-- ==== Proof.LibRowProduct.lean ====
/-
  The product x · Wᵀ of an M×K array x and an N×K array W over the extended reals, as one function of the two arrays:
  its entry (a, b) is the sum over the shared coordinate c of x (a, c) · W (b, c).

  Two spellings of it meet here. The host transposes W to a K×N array and contracts x's columns against its rows:
  entry (a, b) is ∑ c, x (a, c) · Wᵀ (c, b), and Wᵀ (c, b) is W (b, c). The matrix unit contracts the columns of both
  factors directly into a zero accumulator: entry (a, b) is ∑ c, x (a, c) · W (b, c). Both are the same finite sum,
  term by term; no law of arithmetic is used beyond reading the two products at an entry.
-/
import Idealize.ShloMosaic.PureOps.Ideal
import Idealize.ShloMosaic.PureOps.Ideal.Laws
import Idealize.ShloMosaic.Lib.ValueIdx
import Idealize.ShloMosaic.Lib.Pipeline.Value
import proofs.«133313_j6708738916816_1_alg».proof.Proof.LibProduct
import proofs.«133313_j6708738916816_1_alg».proof.Proof.LibRowRow

noncomputable section

namespace Cert.LibRowProduct

open Idealize.ShloMosaic Idealize.ShloMosaic.ValueIdx

variable {M K N : ℕ}

/-- x · Wᵀ: entry (a, b) is ∑ c, x (a, c) · W (b, c). -/
def xwT (x : FVec Ideal ⟨2, ![M, K]⟩ .f32) (w : FVec Ideal ⟨2, ![N, K]⟩ .f32) : FVec Ideal ⟨2, ![M, N]⟩ .f32 :=
  fun i => ∑ c : Fin K, x (ix2 (i 0) c) * w (ix2 (i 1) c)

/-- The entry at explicit coordinates. -/
theorem xwT_apply (x : FVec Ideal ⟨2, ![M, K]⟩ .f32) (w : FVec Ideal ⟨2, ![N, K]⟩ .f32) (a : Fin M) (b : Fin N) :
    xwT x w (ix2 a b) = ∑ c : Fin K, x (ix2 a c) * w (ix2 b c) := rfl

/-- The transpose of an N×K array read at (c, b) is the array at (b, c). -/
theorem transpose_entry (w : FVec Ideal ⟨2, ![N, K]⟩ .f32)
    (ht : (⟨2, ![N, K]⟩ : Shape).Transposes [1, 0] ⟨2, ![K, N]⟩) (c : Fin K) (b : Fin N) :
    transpose ⟨2, ![K, N]⟩ [1, 0] w ht (ix2 c b) = w (ix2 b c) :=
  transpose_apply [1, 0] w ht (ix2 c b) (ix2 b c) (fun ax => match ax with
    | ⟨0, _⟩ => rfl
    | ⟨1, _⟩ => rfl)

/-- THE HOST'S SPELLING: x contracted along its columns against the rows of the transposed W is x · Wᵀ. -/
theorem host_eq (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (x : FVec Ideal ⟨2, ![M, K]⟩ .f32) (w : FVec Ideal ⟨2, ![N, K]⟩ .f32)
    (ht : (⟨2, ![N, K]⟩ : Shape).Transposes [1, 0] ⟨2, ![K, N]⟩) :
    Host.dotGeneral d prec x (transpose ⟨2, ![K, N]⟩ [1, 0] w ht) = xwT x w := by
  funext i
  obtain ⟨a, b, rfl⟩ : ∃ (a : Fin M) (b : Fin N), i = ix2 a b := ⟨i 0, i 1, eq_ix2 i⟩
  rw [Cert.LibProduct.dotGeneral_apply d h1 h2 h3 h4 h5 h6 prec x _ a b, xwT_apply]
  exact Finset.sum_congr rfl fun c _ => by rw [transpose_entry w ht c b]

/-- THE MATRIX UNIT'S SPELLING: the columns of both factors contracted into a zero accumulator, at an entry. -/
theorem unit_apply (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) {φ₁ φ₂ : FTy} (l : FVec Ideal ⟨2, ![M, K]⟩ φ₁) (r : FVec Ideal ⟨2, ![N, K]⟩ φ₂)
    (a : Fin M) (b : Fin N) :
    FloatOps.matmul d prec l r (constant ⟨2, ![M, N]⟩ .f32 0x00000000#32) (ix2 a b) = ∑ c : Fin K, l (ix2 a c) * r (ix2 b c) :=
  Cert.LibRowRow.matmul_zero_apply d h1 h2 h3 h4 h5 h6 prec l r a b

end Cert.LibRowProduct

end
-- ==== Proof.Layers.lean ====
/-
  What stands between the four matrix products, and the network as one function of them.

  Each graph-convolution layer takes its product h·Wᵀ (one row per node), the edge list and a bias, and returns
  tanh (D^(-1/2) (A + I) D^(-1/2) (h·Wᵀ) + b): self-loops are appended to the edge list, the degree of a node is the number
  of edges arriving at it, an edge (s, d) carries row s of the product scaled by rsqrt (deg s) · rsqrt (deg d) (zero where
  the degree is not positive), the scaled rows are summed into row d, the bias is added to every row and tanh is applied.
  Nothing in it looks inside the product: it is one function of the product, the edge list and the bias. Both programs
  apply exactly these operations, so they are carried here under one name and never opened: two runs that feed equal
  products into equal layers end equal. The last step adds a bias to every row of the fourth product.
-/
import proofs.«133313_j6708738916816_1_alg».proof.Proof.Gen.ReferenceIdeal
import proofs.«133313_j6708738916816_1_alg».proof.Proof.LibRowProduct

set_option maxRecDepth 16384

noncomputable section

namespace Cert.Layers

open Cert.ReferenceIdeal Cert.ReferenceIdeal.Gen Idealize.ShloMosaic Idealize.ShloMosaic.TcCoe Idealize.SL.Sem Idealize.ShloMosaic.StableHlo

variable {F : FTy → Type} [FloatOps F]

/-- A layer of width 2048 after its product: normalize, gather along the edges, sum into the destinations, add the
    bias, tanh. -/
def conv2048 (xw : (⟨S8192x2048, .f32⟩ : BufTy).Contents (Elt F)) (ei : (⟨S2x65536, .i32⟩ : BufTy).Contents (Elt F)) (b : (⟨S2048, .f32⟩ : BufTy).Contents (Elt F)) : (⟨S8192x2048, .f32⟩ : BufTy).Contents (Elt F) :=
  (Host.tanh (addf (Host.scatterAdd scatter_S8192x2048_S73728x1_S73728x2048_1_0_0_1 (broadcastInDim S8192x2048 ![] bcast_S_S8192x2048 (constant S_ .f32 0x00000000#32)) (broadcastInDim S73728x1 ![0] bcast_S73728_S73728x1_0 (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0)) (mulf (Host.gather gather_S8192x2048_S73728x1_S73728x2048_1_0_n_n_0_1_12048 xw (broadcastInDim S73728x1 ![0] bcast_S73728_S73728x1_0 (select (cmpi .slt (concatenate S73728 0 [⟨S65536, (shapeCast _ (extractStridedSlice S1x65536 ![0, 0] ei slices_S2x65536_S1x65536_0_0) shapeCasts_S1x65536_S65536)⟩, ⟨S8192, (iotaInDim S8192 32 0)⟩] concatenates_S65536_S8192_S73728_d0) (broadcastInDim S73728 ![] bcast_S_S73728 (constantI S_ 32 0#32))) (addi (concatenate S73728 0 [⟨S65536, (shapeCast _ (extractStridedSlice S1x65536 ![0, 0] ei slices_S2x65536_S1x65536_0_0) shapeCasts_S1x65536_S65536)⟩, ⟨S8192, (iotaInDim S8192 32 0)⟩] concatenates_S65536_S8192_S73728_d0) (broadcastInDim S73728 ![] bcast_S_S73728 (constantI S_ 32 8192#32))) (concatenate S73728 0 [⟨S65536, (shapeCast _ (extractStridedSlice S1x65536 ![0, 0] ei slices_S2x65536_S1x65536_0_0) shapeCasts_S1x65536_S65536)⟩, ⟨S8192, (iotaInDim S8192 32 0)⟩] concatenates_S65536_S8192_S73728_d0)))) (broadcastInDim S73728x2048 ![0, 1] bcast_S73728x1_S73728x2048_0_1 (broadcastInDim S73728x1 ![0] bcast_S73728_S73728x1_0 (mulf (Host.gather gather_S8192_S73728x1_S73728_n_0_n_n_0_1_1 (select (cmpf (F := F) .ogt (Host.scatterAdd scatter_S8192_S73728x1_S73728_n_0_0_1 (broadcastInDim S8192 ![] bcast_S_S8192 (constant S_ .f32 0x00000000#32)) (broadcastInDim S73728x1 ![0] bcast_S73728_S73728x1_0 (select (cmpi .slt (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 0#32))) (addi (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 8192#32))) (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0))) (broadcastInDim S73728 ![] bcast_S_S73728 (constant S_ .f32 0x3F800000#32))) (broadcastInDim S8192 ![] bcast_S_S8192 (constant S_ .f32 0x00000000#32))) (Host.rsqrt (Host.scatterAdd scatter_S8192_S73728x1_S73728_n_0_0_1 (broadcastInDim S8192 ![] bcast_S_S8192 (constant S_ .f32 0x00000000#32)) (broadcastInDim S73728x1 ![0] bcast_S73728_S73728x1_0 (select (cmpi .slt (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 0#32))) (addi (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 8192#32))) (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0))) (broadcastInDim S73728 ![] bcast_S_S73728 (constant S_ .f32 0x3F800000#32)))) (broadcastInDim S8192 ![] bcast_S_S8192 (id (constant S_ .f32 0x00000000#32)))) (broadcastInDim S73728x1 ![0] bcast_S73728_S73728x1_0 (select (cmpi .slt (concatenate S73728 0 [⟨S65536, (shapeCast _ (extractStridedSlice S1x65536 ![0, 0] ei slices_S2x65536_S1x65536_0_0) shapeCasts_S1x65536_S65536)⟩, ⟨S8192, (iotaInDim S8192 32 0)⟩] concatenates_S65536_S8192_S73728_d0) (broadcastInDim S73728 ![] bcast_S_S73728 (constantI S_ 32 0#32))) (addi (concatenate S73728 0 [⟨S65536, (shapeCast _ (extractStridedSlice S1x65536 ![0, 0] ei slices_S2x65536_S1x65536_0_0) shapeCasts_S1x65536_S65536)⟩, ⟨S8192, (iotaInDim S8192 32 0)⟩] concatenates_S65536_S8192_S73728_d0) (broadcastInDim S73728 ![] bcast_S_S73728 (constantI S_ 32 8192#32))) (concatenate S73728 0 [⟨S65536, (shapeCast _ (extractStridedSlice S1x65536 ![0, 0] ei slices_S2x65536_S1x65536_0_0) shapeCasts_S1x65536_S65536)⟩, ⟨S8192, (iotaInDim S8192 32 0)⟩] concatenates_S65536_S8192_S73728_d0)))) (Host.gather gather_S8192_S73728x1_S73728_n_0_n_n_0_1_1 (select (cmpf (F := F) .ogt (Host.scatterAdd scatter_S8192_S73728x1_S73728_n_0_0_1 (broadcastInDim S8192 ![] bcast_S_S8192 (constant S_ .f32 0x00000000#32)) (broadcastInDim S73728x1 ![0] bcast_S73728_S73728x1_0 (select (cmpi .slt (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 0#32))) (addi (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 8192#32))) (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0))) (broadcastInDim S73728 ![] bcast_S_S73728 (constant S_ .f32 0x3F800000#32))) (broadcastInDim S8192 ![] bcast_S_S8192 (constant S_ .f32 0x00000000#32))) (Host.rsqrt (Host.scatterAdd scatter_S8192_S73728x1_S73728_n_0_0_1 (broadcastInDim S8192 ![] bcast_S_S8192 (constant S_ .f32 0x00000000#32)) (broadcastInDim S73728x1 ![0] bcast_S73728_S73728x1_0 (select (cmpi .slt (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 0#32))) (addi (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 8192#32))) (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0))) (broadcastInDim S73728 ![] bcast_S_S73728 (constant S_ .f32 0x3F800000#32)))) (broadcastInDim S8192 ![] bcast_S_S8192 (id (constant S_ .f32 0x00000000#32)))) (broadcastInDim S73728x1 ![0] bcast_S73728_S73728x1_0 (select (cmpi .slt (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 0#32))) (addi (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 8192#32))) (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0))))))))) (broadcastInDim S8192x2048 ![0, 1] bcast_S1x2048_S8192x2048_0_1 (broadcastInDim S1x2048 ![1] bcast_S2048_S1x2048_1 b))))

/-- The same layer at width 1024. -/
def conv1024 (xw : (⟨S8192x1024, .f32⟩ : BufTy).Contents (Elt F)) (ei : (⟨S2x65536, .i32⟩ : BufTy).Contents (Elt F)) (b : (⟨S1024, .f32⟩ : BufTy).Contents (Elt F)) : (⟨S8192x1024, .f32⟩ : BufTy).Contents (Elt F) :=
  (Host.tanh (addf (Host.scatterAdd scatter_S8192x1024_S73728x1_S73728x1024_1_0_0_1 (broadcastInDim S8192x1024 ![] bcast_S_S8192x1024 (constant S_ .f32 0x00000000#32)) (broadcastInDim S73728x1 ![0] bcast_S73728_S73728x1_0 (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0)) (mulf (Host.gather gather_S8192x1024_S73728x1_S73728x1024_1_0_n_n_0_1_11024 xw (broadcastInDim S73728x1 ![0] bcast_S73728_S73728x1_0 (select (cmpi .slt (concatenate S73728 0 [⟨S65536, (shapeCast _ (extractStridedSlice S1x65536 ![0, 0] ei slices_S2x65536_S1x65536_0_0) shapeCasts_S1x65536_S65536)⟩, ⟨S8192, (iotaInDim S8192 32 0)⟩] concatenates_S65536_S8192_S73728_d0) (broadcastInDim S73728 ![] bcast_S_S73728 (constantI S_ 32 0#32))) (addi (concatenate S73728 0 [⟨S65536, (shapeCast _ (extractStridedSlice S1x65536 ![0, 0] ei slices_S2x65536_S1x65536_0_0) shapeCasts_S1x65536_S65536)⟩, ⟨S8192, (iotaInDim S8192 32 0)⟩] concatenates_S65536_S8192_S73728_d0) (broadcastInDim S73728 ![] bcast_S_S73728 (constantI S_ 32 8192#32))) (concatenate S73728 0 [⟨S65536, (shapeCast _ (extractStridedSlice S1x65536 ![0, 0] ei slices_S2x65536_S1x65536_0_0) shapeCasts_S1x65536_S65536)⟩, ⟨S8192, (iotaInDim S8192 32 0)⟩] concatenates_S65536_S8192_S73728_d0)))) (broadcastInDim S73728x1024 ![0, 1] bcast_S73728x1_S73728x1024_0_1 (broadcastInDim S73728x1 ![0] bcast_S73728_S73728x1_0 (mulf (Host.gather gather_S8192_S73728x1_S73728_n_0_n_n_0_1_1 (select (cmpf (F := F) .ogt (Host.scatterAdd scatter_S8192_S73728x1_S73728_n_0_0_1 (broadcastInDim S8192 ![] bcast_S_S8192 (constant S_ .f32 0x00000000#32)) (broadcastInDim S73728x1 ![0] bcast_S73728_S73728x1_0 (select (cmpi .slt (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 0#32))) (addi (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 8192#32))) (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0))) (broadcastInDim S73728 ![] bcast_S_S73728 (constant S_ .f32 0x3F800000#32))) (broadcastInDim S8192 ![] bcast_S_S8192 (constant S_ .f32 0x00000000#32))) (Host.rsqrt (Host.scatterAdd scatter_S8192_S73728x1_S73728_n_0_0_1 (broadcastInDim S8192 ![] bcast_S_S8192 (constant S_ .f32 0x00000000#32)) (broadcastInDim S73728x1 ![0] bcast_S73728_S73728x1_0 (select (cmpi .slt (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 0#32))) (addi (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 8192#32))) (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0))) (broadcastInDim S73728 ![] bcast_S_S73728 (constant S_ .f32 0x3F800000#32)))) (broadcastInDim S8192 ![] bcast_S_S8192 (id (constant S_ .f32 0x00000000#32)))) (broadcastInDim S73728x1 ![0] bcast_S73728_S73728x1_0 (select (cmpi .slt (concatenate S73728 0 [⟨S65536, (shapeCast _ (extractStridedSlice S1x65536 ![0, 0] ei slices_S2x65536_S1x65536_0_0) shapeCasts_S1x65536_S65536)⟩, ⟨S8192, (iotaInDim S8192 32 0)⟩] concatenates_S65536_S8192_S73728_d0) (broadcastInDim S73728 ![] bcast_S_S73728 (constantI S_ 32 0#32))) (addi (concatenate S73728 0 [⟨S65536, (shapeCast _ (extractStridedSlice S1x65536 ![0, 0] ei slices_S2x65536_S1x65536_0_0) shapeCasts_S1x65536_S65536)⟩, ⟨S8192, (iotaInDim S8192 32 0)⟩] concatenates_S65536_S8192_S73728_d0) (broadcastInDim S73728 ![] bcast_S_S73728 (constantI S_ 32 8192#32))) (concatenate S73728 0 [⟨S65536, (shapeCast _ (extractStridedSlice S1x65536 ![0, 0] ei slices_S2x65536_S1x65536_0_0) shapeCasts_S1x65536_S65536)⟩, ⟨S8192, (iotaInDim S8192 32 0)⟩] concatenates_S65536_S8192_S73728_d0)))) (Host.gather gather_S8192_S73728x1_S73728_n_0_n_n_0_1_1 (select (cmpf (F := F) .ogt (Host.scatterAdd scatter_S8192_S73728x1_S73728_n_0_0_1 (broadcastInDim S8192 ![] bcast_S_S8192 (constant S_ .f32 0x00000000#32)) (broadcastInDim S73728x1 ![0] bcast_S73728_S73728x1_0 (select (cmpi .slt (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 0#32))) (addi (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 8192#32))) (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0))) (broadcastInDim S73728 ![] bcast_S_S73728 (constant S_ .f32 0x3F800000#32))) (broadcastInDim S8192 ![] bcast_S_S8192 (constant S_ .f32 0x00000000#32))) (Host.rsqrt (Host.scatterAdd scatter_S8192_S73728x1_S73728_n_0_0_1 (broadcastInDim S8192 ![] bcast_S_S8192 (constant S_ .f32 0x00000000#32)) (broadcastInDim S73728x1 ![0] bcast_S73728_S73728x1_0 (select (cmpi .slt (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 0#32))) (addi (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 8192#32))) (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0))) (broadcastInDim S73728 ![] bcast_S_S73728 (constant S_ .f32 0x3F800000#32)))) (broadcastInDim S8192 ![] bcast_S_S8192 (id (constant S_ .f32 0x00000000#32)))) (broadcastInDim S73728x1 ![0] bcast_S73728_S73728x1_0 (select (cmpi .slt (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 0#32))) (addi (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0) (broadcastInDim S73728 ![] bcast_S_S73728 (constantI S_ 32 8192#32))) (concatenate S73728 0 [⟨S65536, (shapeCast _ (extractStridedSlice S1x65536 ![1, 0] ei slices_S2x65536_S1x65536_1_0) shapeCasts_S1x65536_S65536)⟩, ⟨S8192, (iotaInDim S8192 32 0)⟩] concatenates_S65536_S8192_S73728_d0))))))))) (broadcastInDim S8192x1024 ![0, 1] bcast_S1x1024_S8192x1024_0_1 (broadcastInDim S1x1024 ![1] bcast_S1024_S1x1024_1 b))))

/-- The last step: a bias added to every row. -/
def outBias (y : (⟨S8192x768, .f32⟩ : BufTy).Contents (Elt F)) (bl : (⟨S768, .f32⟩ : BufTy).Contents (Elt F)) : (⟨S8192x768, .f32⟩ : BufTy).Contents (Elt F) :=
  addf y (broadcastInDim S8192x768 ![0, 1] bcast_S1x768_S8192x768_0_1 (broadcastInDim S1x768 ![1] bcast_S768_S1x768_1 bl))

/-- THE NETWORK over a choice of its four products: three layers and the output bias. -/
def net (p1 : (⟨S8192x256, .f32⟩ : BufTy).Contents (Elt F) → (⟨S2048x256, .f32⟩ : BufTy).Contents (Elt F) → (⟨S8192x2048, .f32⟩ : BufTy).Contents (Elt F))
    (p2 : (⟨S8192x2048, .f32⟩ : BufTy).Contents (Elt F) → (⟨S2048x2048, .f32⟩ : BufTy).Contents (Elt F) → (⟨S8192x2048, .f32⟩ : BufTy).Contents (Elt F))
    (p3 : (⟨S8192x2048, .f32⟩ : BufTy).Contents (Elt F) → (⟨S1024x2048, .f32⟩ : BufTy).Contents (Elt F) → (⟨S8192x1024, .f32⟩ : BufTy).Contents (Elt F))
    (p4 : (⟨S8192x1024, .f32⟩ : BufTy).Contents (Elt F) → (⟨S768x1024, .f32⟩ : BufTy).Contents (Elt F) → (⟨S8192x768, .f32⟩ : BufTy).Contents (Elt F))
    (x : (⟨S8192x256, .f32⟩ : BufTy).Contents (Elt F)) (ei : (⟨S2x65536, .i32⟩ : BufTy).Contents (Elt F)) (w1 : (⟨S2048x256, .f32⟩ : BufTy).Contents (Elt F)) (b1 : (⟨S2048, .f32⟩ : BufTy).Contents (Elt F)) (w2 : (⟨S2048x2048, .f32⟩ : BufTy).Contents (Elt F)) (b2 : (⟨S2048, .f32⟩ : BufTy).Contents (Elt F))
    (w3 : (⟨S1024x2048, .f32⟩ : BufTy).Contents (Elt F)) (b3 : (⟨S1024, .f32⟩ : BufTy).Contents (Elt F)) (wl : (⟨S768x1024, .f32⟩ : BufTy).Contents (Elt F)) (bl : (⟨S768, .f32⟩ : BufTy).Contents (Elt F)) : (⟨S8192x768, .f32⟩ : BufTy).Contents (Elt F) :=
  outBias (p4 (conv1024 (p3 (conv2048 (p2 (conv2048 (p1 x w1) ei b1) w2) ei b2) w3) ei b3) wl) bl

/-- The host's four products: the weight transposed, then the columns of the left factor against its rows. -/
def host1 (x : (⟨S8192x256, .f32⟩ : BufTy).Contents (Elt F)) (w : (⟨S2048x256, .f32⟩ : BufTy).Contents (Elt F)) : (⟨S8192x2048, .f32⟩ : BufTy).Contents (Elt F) :=
  Host.dotGeneral dot_S8192x256_S256x2048_S8192x2048_1_0_0_1_n_n none x (transpose S256x2048 [1, 0] w transposes_S2048x256_S256x2048_1_0)
def host2 (x : (⟨S8192x2048, .f32⟩ : BufTy).Contents (Elt F)) (w : (⟨S2048x2048, .f32⟩ : BufTy).Contents (Elt F)) : (⟨S8192x2048, .f32⟩ : BufTy).Contents (Elt F) :=
  Host.dotGeneral dot_S8192x2048_S2048x2048_S8192x2048_1_0_0_1_n_n none x (transpose S2048x2048 [1, 0] w transposes_S2048x2048_S2048x2048_1_0)
def host3 (x : (⟨S8192x2048, .f32⟩ : BufTy).Contents (Elt F)) (w : (⟨S1024x2048, .f32⟩ : BufTy).Contents (Elt F)) : (⟨S8192x1024, .f32⟩ : BufTy).Contents (Elt F) :=
  Host.dotGeneral dot_S8192x2048_S2048x1024_S8192x1024_1_0_0_1_n_n none x (transpose S2048x1024 [1, 0] w transposes_S1024x2048_S2048x1024_1_0)
def host4 (x : (⟨S8192x1024, .f32⟩ : BufTy).Contents (Elt F)) (w : (⟨S768x1024, .f32⟩ : BufTy).Contents (Elt F)) : (⟨S8192x768, .f32⟩ : BufTy).Contents (Elt F) :=
  Host.dotGeneral dot_S8192x1024_S1024x768_S8192x768_1_0_0_1_n_n none x (transpose S1024x768 [1, 0] w transposes_S768x1024_S1024x768_1_0)

/-- Over the extended reals each of the host's products is x · Wᵀ entry by entry. -/
theorem host1_eq : host1 (F := Ideal) = Cert.LibRowProduct.xwT (M := 8192) (K := 256) (N := 2048) :=
  funext fun x => funext fun w => Cert.LibRowProduct.host_eq dot_S8192x256_S256x2048_S8192x2048_1_0_0_1_n_n rfl rfl rfl rfl rfl rfl none x w transposes_S2048x256_S256x2048_1_0
theorem host2_eq : host2 (F := Ideal) = Cert.LibRowProduct.xwT (M := 8192) (K := 2048) (N := 2048) :=
  funext fun x => funext fun w => Cert.LibRowProduct.host_eq dot_S8192x2048_S2048x2048_S8192x2048_1_0_0_1_n_n rfl rfl rfl rfl rfl rfl none x w transposes_S2048x2048_S2048x2048_1_0
theorem host3_eq : host3 (F := Ideal) = Cert.LibRowProduct.xwT (M := 8192) (K := 2048) (N := 1024) :=
  funext fun x => funext fun w => Cert.LibRowProduct.host_eq dot_S8192x2048_S2048x1024_S8192x1024_1_0_0_1_n_n rfl rfl rfl rfl rfl rfl none x w transposes_S1024x2048_S2048x1024_1_0
theorem host4_eq : host4 (F := Ideal) = Cert.LibRowProduct.xwT (M := 8192) (K := 1024) (N := 768) :=
  funext fun x => funext fun w => Cert.LibRowProduct.host_eq dot_S8192x1024_S1024x768_S8192x768_1_0_0_1_n_n rfl rfl rfl rfl rfl rfl none x w transposes_S768x1024_S1024x768_1_0

end Cert.Layers

end
-- ==== Proof.KernelGlue1.lean ====
/-
  What the first stretch of glue leaves behind.

  Between two regions the kernel program runs some fifty host operations: it appends the self-loops to the edge list,
  counts the degrees, takes their inverse square roots where they are positive, gathers the rows of the product along the
  edges, scales them, sums them into their destinations, adds the bias and applies tanh. Read from the buffers as the
  preceding region left them, the layer's buffer ends holding the layer function of three of those buffers: the
  product, the edge list and the bias. The operations are the reference's, one for one, so that function is the one
  named once for both programs.
-/
import proofs.«133313_j6708738916816_1_alg».proof.Proof.Gen.KernelIdeal.Frame
import proofs.«133313_j6708738916816_1_alg».proof.Proof.Layers
import proofs.«133313_j6708738916816_1_alg».proof.Proof.LibCat

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo
open Cert.Layers (conv2048 conv1024 outBias)

variable (m : (ℓ : Loc nD τ sig) → Buf (Elt Ideal) ℓ) (ρ : Dev nD → PrngReg)

set_option maxRecDepth 200000 in
set_option maxHeartbeats 4000000 in
/-- After the first stretch of glue the layer's buffer holds the layer function of the first region's result, the edge list
    and the first bias, as those buffers stood at the region's exit. -/
theorem glue1 (c : Dev nD) : W4 m ρ c (Proc.devRef .tc main_v52)
    = conv2048 (F := Ideal) (W1 m ρ c (Proc.devRef .tc main_v0)) (W1 m ρ c (Proc.devRef .tc main_arg1)) (W1 m ρ c (Proc.devRef .tc main_arg3)) := by
  show StableHlo.after hostOps1_2 (StableHlo.after hostOps1_1 (StableHlo.after hostOps1 (W1 m ρ c))) (Proc.devRef .tc main_v52) = _
  after_results_cat
  all_goals (unfold Cert.Layers.conv2048 Cert.LibCat.cat2; rfl)

end Cert.KernelIdeal.Glue

end
-- ==== Proof.KernelGlue2.lean ====
/-
  What the second stretch of glue leaves behind: the same fifty host operations as the first, on the second region's
  result, the edge list and the second bias.
-/
import proofs.«133313_j6708738916816_1_alg».proof.Proof.Gen.KernelIdeal.Frame
import proofs.«133313_j6708738916816_1_alg».proof.Proof.Layers
import proofs.«133313_j6708738916816_1_alg».proof.Proof.LibCat
import proofs.«133313_j6708738916816_1_alg».proof.Proof.KernelGlue1

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo
open Cert.Layers (conv2048 conv1024 outBias)

variable (m : (ℓ : Loc nD τ sig) → Buf (Elt Ideal) ℓ) (ρ : Dev nD → PrngReg)

set_option maxRecDepth 200000 in
set_option maxHeartbeats 4000000 in
/-- After the second stretch of glue the layer's buffer holds the layer function of the second region's result, the edge
    list and the second bias, as those buffers stood at that region's exit. -/
theorem glue2 (c : Dev nD) : W8 m ρ c (Proc.devRef .tc main_v105)
    = conv2048 (F := Ideal) (W5 m ρ c (Proc.devRef .tc main_v53)) (W5 m ρ c (Proc.devRef .tc main_arg1)) (W5 m ρ c (Proc.devRef .tc main_arg5)) := by
  show StableHlo.after hostOps2_2 (StableHlo.after hostOps2_1 (StableHlo.after hostOps2 (W5 m ρ c))) (Proc.devRef .tc main_v105) = _
  after_results_cat
  all_goals (unfold Cert.Layers.conv2048 Cert.LibCat.cat2; rfl)

end Cert.KernelIdeal.Glue

end
-- ==== Proof.KernelGlue3.lean ====
/-
  What the third stretch of glue leaves behind — the same operations at width 1024, on the third region's result, the
  edge list and the third bias — and the program's last three host operations, which add the output bias to every row of
  the fourth region's result.
-/
import proofs.«133313_j6708738916816_1_alg».proof.Proof.Gen.KernelIdeal.Frame
import proofs.«133313_j6708738916816_1_alg».proof.Proof.Layers
import proofs.«133313_j6708738916816_1_alg».proof.Proof.LibCat
import proofs.«133313_j6708738916816_1_alg».proof.Proof.KernelGlue2

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo
open Cert.Layers (conv2048 conv1024 outBias)

variable (m : (ℓ : Loc nD τ sig) → Buf (Elt Ideal) ℓ) (ρ : Dev nD → PrngReg)

set_option maxRecDepth 200000 in
set_option maxHeartbeats 4000000 in
/-- After the third stretch of glue the layer's buffer holds the layer function, at width 1024, of the third region's
    result, the edge list and the third bias, as those buffers stood at that region's exit. -/
theorem glue3 (c : Dev nD) : W12 m ρ c (Proc.devRef .tc main_v158)
    = conv1024 (F := Ideal) (W9 m ρ c (Proc.devRef .tc main_v106)) (W9 m ρ c (Proc.devRef .tc main_arg1)) (W9 m ρ c (Proc.devRef .tc main_arg7)) := by
  show StableHlo.after hostOps3_2 (StableHlo.after hostOps3_1 (StableHlo.after hostOps3 (W9 m ρ c))) (Proc.devRef .tc main_v158) = _
  after_results_cat
  all_goals (unfold Cert.Layers.conv1024 Cert.LibCat.cat2; rfl)

/-- The last three host operations add the output bias to the fourth region's result. -/
theorem glue4 (c : Dev nD) : W14 m ρ c (Proc.devRef .tc main_v162)
    = outBias (F := Ideal) (W13 m ρ c (Proc.devRef .tc main_v159)) (W13 m ρ c (Proc.devRef .tc main_arg9)) := by
  show StableHlo.after hostOps4 (W13 m ρ c) (Proc.devRef .tc main_v162) = _
  after_results_cat
  all_goals (unfold Cert.Layers.outBias; rfl)

end Cert.KernelIdeal.Glue

end
-- ==== Proof.Tile0.lean ====
/-
  The first matrix product as its tiled region leaves it.

  The region walks a 16 × 4 grid. At the point (I, J) it is handed rows 512·I … 512·I + 511 of an 8192 × 256 array x
  and rows 512·J … 512·J + 511 of a 2048 × 256 array W, forms the 512 × 512 array of the sums over c of
  x-row · W-row, and writes it back as block (I, J) of the 8192 × 2048 result. Entry (r, s) of the result lies in
  exactly the block (r / 512, s / 512); that block's entry is the sum over c of x (r, c) · W (s, c), a sum that does not
  see the tiling. So after the region the result array is x · Wᵀ, whatever the two arrays held when the region was
  entered.
-/
import proofs.«133313_j6708738916816_1_alg».proof.Proof.Gen.KernelIdeal.Frame
import proofs.«133313_j6708738916816_1_alg».proof.Proof.LibRowProduct
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tile0

open Cert.KernelIdeal Cert.KernelIdeal.Gen Cert.LibRowProduct

-- the buffers as the region finds them
variable (V : (c : Dev nD) → (b : Ref sig .tc) → Buf (Elt Ideal) ((c : Thread nD τ).loc b))

theorem zeros : (![0, 0] : Fin 2 → Nat) = fun _ => 0 := funext fun a => by fin_cases a <;> rfl

/-- The whole product of the two arrays the region reads. -/
def whole (c : Dev nD) : Buf (Elt Ideal) ((c : Thread nD τ).loc main_v0) :=
  xwT (M := 8192) (K := 256) (N := 2048) (V c main_arg0) (V c main_arg2)

/-- The body's value at an entry: the rounding to the narrow format is the identity over the extended reals, and the
    matrix unit's product into a zero accumulator is the sum over the shared coordinate. -/
theorem pay_apply (x0 : Vec Ideal S512x256 .f32) (x1 : Vec Ideal S512x256 .f32) (p : Fin 512) (q : Fin 512) :
    k0_pay1 (F := Ideal) x0 x1 (ix2 p q) = ∑ c : Fin 256, x0 (ix2 p c) * x1 (ix2 q c) := by
  unfold k0_pay1
  exact unit_apply dot_S512x256_S512x256_S512x512_1_1_0_0_n_n rfl rfl rfl rfl rfl rfl none
    (truncf .bf16 x0 bitsLt_bf16_f32) (truncf .bf16 x1 bitsLt_bf16_f32) p q

/-- A block's entry (p, q) is the whole product's entry i as soon as the block's rows are the rows of the two arrays
    that i names. -/
theorem entry (A : FVec Ideal S8192x256 .f32) (B : FVec Ideal S2048x256 .f32) (x0 : Vec Ideal S512x256 .f32) (x1 : Vec Ideal S512x256 .f32)
    (i : S8192x2048.Idx) (p : Fin 512) (q : Fin 512)
    (h0 : ∀ c : Fin 256, x0 (ix2 p c) = A (ix2 (i 0) c)) (h1 : ∀ c : Fin 256, x1 (ix2 q c) = B (ix2 (i 1) c)) :
    k0_pay1 (F := Ideal) x0 x1 (ix2 p q) = xwT (M := 8192) (K := 256) (N := 2048) A B i := by
  rw [pay_apply]
  exact Finset.sum_congr rfl fun c _ => by rw [h0 c, h1 c]

/-- The three index maps over the grid: x's block follows the output's row block, W's block follows the output's column
    block, neither moves along the contracted axis, and the output's block indices stay in range. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15 ∧ win0_2.index t (1 : Fin 2) ≤ 3 :=
  (by decide +kernel : ∀ t : Fin grid0.N, _)

/-- Every block of the result is some point's. -/
theorem idx_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- x's block at a point, at an entry: the array's entry at block index × block size + the entry's coordinate. -/
theorem blockA_apply (c : Dev nD) (t : Fin cfg0.N) (x : S512x256.Idx) (k : S8192x256.Idx)
    (hk0 : (k 0).val = win0_0.index t (0 : Fin 2) * 512 + (x 0).val)
    (hk1 : (k 1).val = win0_0.index t (1 : Fin 2) * 256 + (x 1).val) :
    (iblk0 V c 0 t : Vec Ideal S512x256 .f32) x = (V c main_arg0 : S8192x256.Idx → Elt Ideal .f32) k := by
  unfold iblk0
  rw [View.read_apply]
  show (V c main_arg0 : S8192x256.Idx → Elt Ideal .f32) _ = _
  refine congrArg (V c main_arg0 : S8192x256.Idx → Elt Ideal .f32) (funext fun a => Fin.ext ?_)
  match a with
  | ⟨0, _⟩ => show win0_0.index t (0 : Fin 2) * 512 + 1 * (x 0).val = (k 0).val; omega
  | ⟨1, _⟩ => show win0_0.index t (1 : Fin 2) * 256 + 1 * (x 1).val = (k 1).val; omega

/-- W's block at a point, at an entry. -/
theorem blockB_apply (c : Dev nD) (t : Fin cfg0.N) (x : S512x256.Idx) (k : S2048x256.Idx)
    (hk0 : (k 0).val = win0_1.index t (0 : Fin 2) * 512 + (x 0).val)
    (hk1 : (k 1).val = win0_1.index t (1 : Fin 2) * 256 + (x 1).val) :
    (iblk0 V c 1 t : Vec Ideal S512x256 .f32) x = (V c main_arg2 : S2048x256.Idx → Elt Ideal .f32) k := by
  unfold iblk0
  rw [View.read_apply]
  show (V c main_arg2 : S2048x256.Idx → Elt Ideal .f32) _ = _
  refine congrArg (V c main_arg2 : S2048x256.Idx → Elt Ideal .f32) (funext fun a => Fin.ext ?_)
  match a with
  | ⟨0, _⟩ => show win0_1.index t (0 : Fin 2) * 512 + 1 * (x 0).val = (k 0).val; omega
  | ⟨1, _⟩ => show win0_1.index t (1 : Fin 2) * 256 + 1 * (x 1).val = (k 1).val; omega

/-- WHAT A POINT WRITES BACK is its block of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero zeros]
  simp only [View.ld_unit_zero (S := S512x256) zeros]
  obtain ⟨e0, e1, e2, e3, b0, b1⟩ := idx_facts t
  funext j
  obtain ⟨p, q, rfl⟩ : ∃ (p : Fin 512) (q : Fin 512), j = ix2 p q := ⟨j 0, j 1, eq_ix2 j⟩
  show k0_pay1 (F := Ideal) (iblk0 V c 0 t) (iblk0 V c 1 t) (ix2 p q)
    = xwT (M := 8192) (K := 256) (N := 2048) (V c main_arg0) (V c main_arg2) (((cfg0.win 2).blk t).view.emb (ix2 p q))
  refine entry (V c main_arg0) (V c main_arg2) (iblk0 V c 0 t) (iblk0 V c 1 t) _ p q (fun cc => ?_) (fun cc => ?_)
  · refine blockA_apply V c t (ix2 p cc) _ ?_ ?_
    · show win0_2.index t (0 : Fin 2) * 512 + 1 * p.val = win0_0.index t (0 : Fin 2) * 512 + p.val; omega
    · show cc.val = win0_0.index t (1 : Fin 2) * 256 + cc.val; omega
  · refine blockB_apply V c t (ix2 q cc) _ ?_ ?_
    · show win0_2.index t (1 : Fin 2) * 512 + 1 * q.val = win0_1.index t (0 : Fin 2) * 512 + q.val; omega
    · show cc.val = win0_1.index t (1 : Fin 2) * 256 + cc.val; omega

/-- An index of the result is in a point's block iff each coordinate is in the block's range on its axis. -/
theorem mem_blk (t : Fin cfg0.N) (i : S8192x2048.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- THE BLOCKS COVER THE RESULT: entry (r, s) lies in block (r / 512, s / 512). -/
theorem cover (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := idx_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- THE RESULT ARRAY AFTER THE REGION is the whole product of the two arrays it read. -/
theorem final (c : Dev nD) : (dat0 V c).arrAt 2 cfg0.N = whole V c :=
  (dat0 V c).arrAt_eq_of_cover 2 (whole V c) (fun t _ => flushed_eq V c t) cover

end Cert.KernelIdeal.Tile0

end
-- ==== Proof.Tile1.lean ====
/-
  The second matrix product as its tiled region leaves it.

  The region walks a 16 × 4 grid. At the point (I, J) it is handed rows 512·I … 512·I + 511 of an 8192 × 2048 array x
  and rows 512·J … 512·J + 511 of a 2048 × 2048 array W, forms the 512 × 512 array of the sums over c of
  x-row · W-row, and writes it back as block (I, J) of the 8192 × 2048 result. Entry (r, s) of the result lies in
  exactly the block (r / 512, s / 512); that block's entry is the sum over c of x (r, c) · W (s, c), a sum that does not
  see the tiling. So after the region the result array is x · Wᵀ, whatever the two arrays held when the region was
  entered.
-/
import proofs.«133313_j6708738916816_1_alg».proof.Proof.Gen.KernelIdeal.Frame
import proofs.«133313_j6708738916816_1_alg».proof.Proof.LibRowProduct
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tile1

open Cert.KernelIdeal Cert.KernelIdeal.Gen Cert.LibRowProduct

-- the buffers as the region finds them
variable (V : (c : Dev nD) → (b : Ref sig .tc) → Buf (Elt Ideal) ((c : Thread nD τ).loc b))

theorem zeros : (![0, 0] : Fin 2 → Nat) = fun _ => 0 := funext fun a => by fin_cases a <;> rfl

/-- The whole product of the two arrays the region reads. -/
def whole (c : Dev nD) : Buf (Elt Ideal) ((c : Thread nD τ).loc main_v53) :=
  xwT (M := 8192) (K := 2048) (N := 2048) (V c main_v52) (V c main_arg4)

/-- The body's value at an entry: the rounding to the narrow format is the identity over the extended reals, the cast of a block to its own shape changes nothing, and the
    matrix unit's product into a zero accumulator is the sum over the shared coordinate. -/
theorem pay_apply (x0 : Vec Ideal S512x2048 .f32) (x1 : Vec Ideal S512x2048 .f32) (p : Fin 512) (q : Fin 512) :
    k1_pay1 (F := Ideal) x0 x1 (ix2 p q) = ∑ c : Fin 2048, x0 (ix2 p c) * x1 (ix2 q c) := by
  unfold k1_pay1
  simp only [shapeCast_self]
  exact unit_apply dot_S512x2048_S512x2048_S512x512_1_1_0_0_n_n rfl rfl rfl rfl rfl rfl none
    (truncf .bf16 x0 bitsLt_bf16_f32) (truncf .bf16 x1 bitsLt_bf16_f32) p q

/-- A block's entry (p, q) is the whole product's entry i as soon as the block's rows are the rows of the two arrays
    that i names. -/
theorem entry (A : FVec Ideal S8192x2048 .f32) (B : FVec Ideal S2048x2048 .f32) (x0 : Vec Ideal S512x2048 .f32) (x1 : Vec Ideal S512x2048 .f32)
    (i : S8192x2048.Idx) (p : Fin 512) (q : Fin 512)
    (h0 : ∀ c : Fin 2048, x0 (ix2 p c) = A (ix2 (i 0) c)) (h1 : ∀ c : Fin 2048, x1 (ix2 q c) = B (ix2 (i 1) c)) :
    k1_pay1 (F := Ideal) x0 x1 (ix2 p q) = xwT (M := 8192) (K := 2048) (N := 2048) A B i := by
  rw [pay_apply]
  exact Finset.sum_congr rfl fun c _ => by rw [h0 c, h1 c]

/-- The three index maps over the grid: x's block follows the output's row block, W's block follows the output's column
    block, neither moves along the contracted axis, and the output's block indices stay in range. -/
theorem idx_facts : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 15 ∧ win1_2.index t (1 : Fin 2) ≤ 3 :=
  (by decide +kernel : ∀ t : Fin grid1.N, _)

/-- Every block of the result is some point's. -/
theorem idx_onto : ∀ (q0 : Fin 16) (q1 : Fin 4), ∃ t : Fin cfg1.N, win1_2.index t = ![q0.val, q1.val] :=
  (by decide +kernel : ∀ (q0 : Fin 16) (q1 : Fin 4), ∃ t : Fin grid1.N, win1_2.index t = ![q0.val, q1.val])

/-- x's block at a point, at an entry: the array's entry at block index × block size + the entry's coordinate. -/
theorem blockA_apply (c : Dev nD) (t : Fin cfg1.N) (x : S512x2048.Idx) (k : S8192x2048.Idx)
    (hk0 : (k 0).val = win1_0.index t (0 : Fin 2) * 512 + (x 0).val)
    (hk1 : (k 1).val = win1_0.index t (1 : Fin 2) * 2048 + (x 1).val) :
    (iblk1 V c 0 t : Vec Ideal S512x2048 .f32) x = (V c main_v52 : S8192x2048.Idx → Elt Ideal .f32) k := by
  unfold iblk1
  rw [View.read_apply]
  show (V c main_v52 : S8192x2048.Idx → Elt Ideal .f32) _ = _
  refine congrArg (V c main_v52 : S8192x2048.Idx → Elt Ideal .f32) (funext fun a => Fin.ext ?_)
  match a with
  | ⟨0, _⟩ => show win1_0.index t (0 : Fin 2) * 512 + 1 * (x 0).val = (k 0).val; omega
  | ⟨1, _⟩ => show win1_0.index t (1 : Fin 2) * 2048 + 1 * (x 1).val = (k 1).val; omega

/-- W's block at a point, at an entry. -/
theorem blockB_apply (c : Dev nD) (t : Fin cfg1.N) (x : S512x2048.Idx) (k : S2048x2048.Idx)
    (hk0 : (k 0).val = win1_1.index t (0 : Fin 2) * 512 + (x 0).val)
    (hk1 : (k 1).val = win1_1.index t (1 : Fin 2) * 2048 + (x 1).val) :
    (iblk1 V c 1 t : Vec Ideal S512x2048 .f32) x = (V c main_arg4 : S2048x2048.Idx → Elt Ideal .f32) k := by
  unfold iblk1
  rw [View.read_apply]
  show (V c main_arg4 : S2048x2048.Idx → Elt Ideal .f32) _ = _
  refine congrArg (V c main_arg4 : S2048x2048.Idx → Elt Ideal .f32) (funext fun a => Fin.ext ?_)
  match a with
  | ⟨0, _⟩ => show win1_1.index t (0 : Fin 2) * 512 + 1 * (x 0).val = (k 0).val; omega
  | ⟨1, _⟩ => show win1_1.index t (1 : Fin 2) * 2048 + 1 * (x 1).val = (k 1).val; omega

/-- WHAT A POINT WRITES BACK is its block of the whole product. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero zeros]
  simp only [View.ld_unit_zero (S := S512x2048) zeros]
  obtain ⟨e0, e1, e2, e3, b0, b1⟩ := idx_facts t
  funext j
  obtain ⟨p, q, rfl⟩ : ∃ (p : Fin 512) (q : Fin 512), j = ix2 p q := ⟨j 0, j 1, eq_ix2 j⟩
  show k1_pay1 (F := Ideal) (iblk1 V c 0 t) (iblk1 V c 1 t) (ix2 p q)
    = xwT (M := 8192) (K := 2048) (N := 2048) (V c main_v52) (V c main_arg4) (((cfg1.win 2).blk t).view.emb (ix2 p q))
  refine entry (V c main_v52) (V c main_arg4) (iblk1 V c 0 t) (iblk1 V c 1 t) _ p q (fun cc => ?_) (fun cc => ?_)
  · refine blockA_apply V c t (ix2 p cc) _ ?_ ?_
    · show win1_2.index t (0 : Fin 2) * 512 + 1 * p.val = win1_0.index t (0 : Fin 2) * 512 + p.val; omega
    · show cc.val = win1_0.index t (1 : Fin 2) * 2048 + cc.val; omega
  · refine blockB_apply V c t (ix2 q cc) _ ?_ ?_
    · show win1_2.index t (1 : Fin 2) * 512 + 1 * q.val = win1_1.index t (0 : Fin 2) * 512 + q.val; omega
    · show cc.val = win1_1.index t (1 : Fin 2) * 2048 + cc.val; omega

/-- An index of the result is in a point's block iff each coordinate is in the block's range on its axis. -/
theorem mem_blk (t : Fin cfg1.N) (i : S8192x2048.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v53).slice (win1_2.rect t)).set ↔ _
  rw [View.set_slice_whole, Rect.mem_set_unit]
  exact Iff.rfl

/-- THE BLOCKS COVER THE RESULT: entry (r, s) lies in block (r / 512, s / 512). -/
theorem cover (i : S8192x2048.Idx) : ∃ t : Fin cfg1.N, (cfg1.win 2).flush t = true ∧ i ∈ ((cfg1.win 2).blk t).view.set := by
  have hi0 : (i 0).val < 8192 := (i 0).isLt
  have hi1 : (i 1).val < 2048 := (i 1).isLt
  obtain ⟨t, ht⟩ := idx_onto ⟨(i 0).val / 512, by omega⟩ ⟨(i 1).val / 512, by omega⟩
  have q0 : win1_2.index t (0 : Fin 2) = (i 0).val / 512 := congrFun ht 0
  have q1 : win1_2.index t (1 : Fin 2) = (i 1).val / 512 := congrFun ht 1
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 512 ≤ (i 1).val ∧ (i 1).val < win1_2.index t (1 : Fin 2) * 512 + 512; omega

/-- THE RESULT ARRAY AFTER THE REGION is the whole product of the two arrays it read. -/
theorem final (c : Dev nD) : (dat1 V c).arrAt 2 cfg1.N = whole V c :=
  (dat1 V c).arrAt_eq_of_cover 2 (whole V c) (fun t _ => flushed_eq V c t) cover

end Cert.KernelIdeal.Tile1

end
-- ==== Proof.Tile2.lean ====
/-
  The third matrix product as its tiled region leaves it.

  The region walks a 16 × 2 grid. At the point (I, J) it is handed rows 512·I … 512·I + 511 of an 8192 × 2048 array x
  and rows 512·J … 512·J + 511 of a 1024 × 2048 array W, forms the 512 × 512 array of the sums over c of
  x-row · W-row, and writes it back as block (I, J) of the 8192 × 1024 result. Entry (r, s) of the result lies in
  exactly the block (r / 512, s / 512); that block's entry is the sum over c of x (r, c) · W (s, c), a sum that does not
  see the tiling. So after the region the result array is x · Wᵀ, whatever the two arrays held when the region was
  entered.
-/
import proofs.«133313_j6708738916816_1_alg».proof.Proof.Gen.KernelIdeal.Frame
import proofs.«133313_j6708738916816_1_alg».proof.Proof.LibRowProduct
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tile2

open Cert.KernelIdeal Cert.KernelIdeal.Gen Cert.LibRowProduct

-- the buffers as the region finds them
variable (V : (c : Dev nD) → (b : Ref sig .tc) → Buf (Elt Ideal) ((c : Thread nD τ).loc b))

theorem zeros : (![0, 0] : Fin 2 → Nat) = fun _ => 0 := funext fun a => by fin_cases a <;> rfl

/-- The whole product of the two arrays the region reads. -/
def whole (c : Dev nD) : Buf (Elt Ideal) ((c : Thread nD τ).loc main_v106) :=
  xwT (M := 8192) (K := 2048) (N := 1024) (V c main_v105) (V c main_arg6)

/-- The body's value at an entry: the rounding to the narrow format is the identity over the extended reals, the cast of a block to its own shape changes nothing, and the
    matrix unit's product into a zero accumulator is the sum over the shared coordinate. -/
theorem pay_apply (x0 : Vec Ideal S512x2048 .f32) (x1 : Vec Ideal S512x2048 .f32) (p : Fin 512) (q : Fin 512) :
    k2_pay1 (F := Ideal) x0 x1 (ix2 p q) = ∑ c : Fin 2048, x0 (ix2 p c) * x1 (ix2 q c) := by
  unfold k2_pay1
  simp only [shapeCast_self]
  exact unit_apply dot_S512x2048_S512x2048_S512x512_1_1_0_0_n_n rfl rfl rfl rfl rfl rfl none
    (truncf .bf16 x0 bitsLt_bf16_f32) (truncf .bf16 x1 bitsLt_bf16_f32) p q

/-- A block's entry (p, q) is the whole product's entry i as soon as the block's rows are the rows of the two arrays
    that i names. -/
theorem entry (A : FVec Ideal S8192x2048 .f32) (B : FVec Ideal S1024x2048 .f32) (x0 : Vec Ideal S512x2048 .f32) (x1 : Vec Ideal S512x2048 .f32)
    (i : S8192x1024.Idx) (p : Fin 512) (q : Fin 512)
    (h0 : ∀ c : Fin 2048, x0 (ix2 p c) = A (ix2 (i 0) c)) (h1 : ∀ c : Fin 2048, x1 (ix2 q c) = B (ix2 (i 1) c)) :
    k2_pay1 (F := Ideal) x0 x1 (ix2 p q) = xwT (M := 8192) (K := 2048) (N := 1024) A B i := by
  rw [pay_apply]
  exact Finset.sum_congr rfl fun c _ => by rw [h0 c, h1 c]

/-- The three index maps over the grid: x's block follows the output's row block, W's block follows the output's column
    block, neither moves along the contracted axis, and the output's block indices stay in range. -/
theorem idx_facts : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) ≤ 15 ∧ win2_2.index t (1 : Fin 2) ≤ 1 :=
  (by decide +kernel : ∀ t : Fin grid2.N, _)

/-- Every block of the result is some point's. -/
theorem idx_onto : ∀ (q0 : Fin 16) (q1 : Fin 2), ∃ t : Fin cfg2.N, win2_2.index t = ![q0.val, q1.val] :=
  (by decide +kernel : ∀ (q0 : Fin 16) (q1 : Fin 2), ∃ t : Fin grid2.N, win2_2.index t = ![q0.val, q1.val])

/-- x's block at a point, at an entry: the array's entry at block index × block size + the entry's coordinate. -/
theorem blockA_apply (c : Dev nD) (t : Fin cfg2.N) (x : S512x2048.Idx) (k : S8192x2048.Idx)
    (hk0 : (k 0).val = win2_0.index t (0 : Fin 2) * 512 + (x 0).val)
    (hk1 : (k 1).val = win2_0.index t (1 : Fin 2) * 2048 + (x 1).val) :
    (iblk2 V c 0 t : Vec Ideal S512x2048 .f32) x = (V c main_v105 : S8192x2048.Idx → Elt Ideal .f32) k := by
  unfold iblk2
  rw [View.read_apply]
  show (V c main_v105 : S8192x2048.Idx → Elt Ideal .f32) _ = _
  refine congrArg (V c main_v105 : S8192x2048.Idx → Elt Ideal .f32) (funext fun a => Fin.ext ?_)
  match a with
  | ⟨0, _⟩ => show win2_0.index t (0 : Fin 2) * 512 + 1 * (x 0).val = (k 0).val; omega
  | ⟨1, _⟩ => show win2_0.index t (1 : Fin 2) * 2048 + 1 * (x 1).val = (k 1).val; omega

/-- W's block at a point, at an entry. -/
theorem blockB_apply (c : Dev nD) (t : Fin cfg2.N) (x : S512x2048.Idx) (k : S1024x2048.Idx)
    (hk0 : (k 0).val = win2_1.index t (0 : Fin 2) * 512 + (x 0).val)
    (hk1 : (k 1).val = win2_1.index t (1 : Fin 2) * 2048 + (x 1).val) :
    (iblk2 V c 1 t : Vec Ideal S512x2048 .f32) x = (V c main_arg6 : S1024x2048.Idx → Elt Ideal .f32) k := by
  unfold iblk2
  rw [View.read_apply]
  show (V c main_arg6 : S1024x2048.Idx → Elt Ideal .f32) _ = _
  refine congrArg (V c main_arg6 : S1024x2048.Idx → Elt Ideal .f32) (funext fun a => Fin.ext ?_)
  match a with
  | ⟨0, _⟩ => show win2_1.index t (0 : Fin 2) * 512 + 1 * (x 0).val = (k 0).val; omega
  | ⟨1, _⟩ => show win2_1.index t (1 : Fin 2) * 2048 + 1 * (x 1).val = (k 1).val; omega

/-- WHAT A POINT WRITES BACK is its block of the whole product. -/
theorem flushed_eq (c : Dev nD) (t : Fin cfg2.N) :
    (dat2 V c).flushed 2 t = ((cfg2.win 2).blk t).view.read (Elt Ideal) (whole V c) := by
  show (cfg2.win 2).cut (grid2.coords t) ((dat2 V c).after 2 t) = _
  rw [after2_2]
  unfold out2_2
  rw [View.canon_unit_zero zeros]
  simp only [View.ld_unit_zero (S := S512x2048) zeros]
  obtain ⟨e0, e1, e2, e3, b0, b1⟩ := idx_facts t
  funext j
  obtain ⟨p, q, rfl⟩ : ∃ (p : Fin 512) (q : Fin 512), j = ix2 p q := ⟨j 0, j 1, eq_ix2 j⟩
  show k2_pay1 (F := Ideal) (iblk2 V c 0 t) (iblk2 V c 1 t) (ix2 p q)
    = xwT (M := 8192) (K := 2048) (N := 1024) (V c main_v105) (V c main_arg6) (((cfg2.win 2).blk t).view.emb (ix2 p q))
  refine entry (V c main_v105) (V c main_arg6) (iblk2 V c 0 t) (iblk2 V c 1 t) _ p q (fun cc => ?_) (fun cc => ?_)
  · refine blockA_apply V c t (ix2 p cc) _ ?_ ?_
    · show win2_2.index t (0 : Fin 2) * 512 + 1 * p.val = win2_0.index t (0 : Fin 2) * 512 + p.val; omega
    · show cc.val = win2_0.index t (1 : Fin 2) * 2048 + cc.val; omega
  · refine blockB_apply V c t (ix2 q cc) _ ?_ ?_
    · show win2_2.index t (1 : Fin 2) * 512 + 1 * q.val = win2_1.index t (0 : Fin 2) * 512 + q.val; omega
    · show cc.val = win2_1.index t (1 : Fin 2) * 2048 + cc.val; omega

/-- An index of the result is in a point's block iff each coordinate is in the block's range on its axis. -/
theorem mem_blk (t : Fin cfg2.N) (i : S8192x1024.Idx) :
    i ∈ ((cfg2.win 2).blk t).view.set ↔ ∀ a : Fin 2, win2_2.index t a * S512x512.size a ≤ (i a).val ∧ (i a).val < win2_2.index t a * S512x512.size a + S512x512.size a := by
  show i ∈ ((View.whole main_v106).slice (win2_2.rect t)).set ↔ _
  rw [View.set_slice_whole, Rect.mem_set_unit]
  exact Iff.rfl

/-- THE BLOCKS COVER THE RESULT: entry (r, s) lies in block (r / 512, s / 512). -/
theorem cover (i : S8192x1024.Idx) : ∃ t : Fin cfg2.N, (cfg2.win 2).flush t = true ∧ i ∈ ((cfg2.win 2).blk t).view.set := by
  have hi0 : (i 0).val < 8192 := (i 0).isLt
  have hi1 : (i 1).val < 1024 := (i 1).isLt
  obtain ⟨t, ht⟩ := idx_onto ⟨(i 0).val / 512, by omega⟩ ⟨(i 1).val / 512, by omega⟩
  have q0 : win2_2.index t (0 : Fin 2) = (i 0).val / 512 := congrFun ht 0
  have q1 : win2_2.index t (1 : Fin 2) = (i 1).val / 512 := congrFun ht 1
  refine ⟨t, flush2_2 t, ?_⟩
  rw [mem_blk]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 512 ≤ (i 1).val ∧ (i 1).val < win2_2.index t (1 : Fin 2) * 512 + 512; omega

/-- THE RESULT ARRAY AFTER THE REGION is the whole product of the two arrays it read. -/
theorem final (c : Dev nD) : (dat2 V c).arrAt 2 cfg2.N = whole V c :=
  (dat2 V c).arrAt_eq_of_cover 2 (whole V c) (fun t _ => flushed_eq V c t) cover

end Cert.KernelIdeal.Tile2

end
-- ==== Proof.Tile3.lean ====
/-
  The fourth matrix product as its tiled region leaves it.

  The region walks a 16 × 3 grid. At the point (I, J) it is handed rows 512·I … 512·I + 511 of an 8192 × 1024 array x
  and rows 256·J … 256·J + 255 of a 768 × 1024 array W, forms the 512 × 256 array of the sums over c of
  x-row · W-row, and writes it back as block (I, J) of the 8192 × 768 result. Entry (r, s) of the result lies in
  exactly the block (r / 512, s / 256); that block's entry is the sum over c of x (r, c) · W (s, c), a sum that does not
  see the tiling. So after the region the result array is x · Wᵀ, whatever the two arrays held when the region was
  entered.
-/
import proofs.«133313_j6708738916816_1_alg».proof.Proof.Gen.KernelIdeal.Frame
import proofs.«133313_j6708738916816_1_alg».proof.Proof.LibRowProduct
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tile3

open Cert.KernelIdeal Cert.KernelIdeal.Gen Cert.LibRowProduct

-- the buffers as the region finds them
variable (V : (c : Dev nD) → (b : Ref sig .tc) → Buf (Elt Ideal) ((c : Thread nD τ).loc b))

theorem zeros : (![0, 0] : Fin 2 → Nat) = fun _ => 0 := funext fun a => by fin_cases a <;> rfl

/-- The whole product of the two arrays the region reads. -/
def whole (c : Dev nD) : Buf (Elt Ideal) ((c : Thread nD τ).loc main_v159) :=
  xwT (M := 8192) (K := 1024) (N := 768) (V c main_v158) (V c main_arg8)

/-- The body's value at an entry: the rounding to the narrow format is the identity over the extended reals, the cast of a block to its own shape changes nothing, and the
    matrix unit's product into a zero accumulator is the sum over the shared coordinate. -/
theorem pay_apply (x0 : Vec Ideal S512x1024 .f32) (x1 : Vec Ideal S256x1024 .f32) (p : Fin 512) (q : Fin 256) :
    k3_pay1 (F := Ideal) x0 x1 (ix2 p q) = ∑ c : Fin 1024, x0 (ix2 p c) * x1 (ix2 q c) := by
  unfold k3_pay1
  simp only [shapeCast_self]
  exact unit_apply dot_S512x1024_S256x1024_S512x256_1_1_0_0_n_n rfl rfl rfl rfl rfl rfl none
    (truncf .bf16 x0 bitsLt_bf16_f32) (truncf .bf16 x1 bitsLt_bf16_f32) p q

/-- A block's entry (p, q) is the whole product's entry i as soon as the block's rows are the rows of the two arrays
    that i names. -/
theorem entry (A : FVec Ideal S8192x1024 .f32) (B : FVec Ideal S768x1024 .f32) (x0 : Vec Ideal S512x1024 .f32) (x1 : Vec Ideal S256x1024 .f32)
    (i : S8192x768.Idx) (p : Fin 512) (q : Fin 256)
    (h0 : ∀ c : Fin 1024, x0 (ix2 p c) = A (ix2 (i 0) c)) (h1 : ∀ c : Fin 1024, x1 (ix2 q c) = B (ix2 (i 1) c)) :
    k3_pay1 (F := Ideal) x0 x1 (ix2 p q) = xwT (M := 8192) (K := 1024) (N := 768) A B i := by
  rw [pay_apply]
  exact Finset.sum_congr rfl fun c _ => by rw [h0 c, h1 c]

/-- The three index maps over the grid: x's block follows the output's row block, W's block follows the output's column
    block, neither moves along the contracted axis, and the output's block indices stay in range. -/
theorem idx_facts : ∀ t : Fin cfg3.N, win3_0.index t (0 : Fin 2) = win3_2.index t (0 : Fin 2)
    ∧ win3_0.index t (1 : Fin 2) = 0
    ∧ win3_1.index t (0 : Fin 2) = win3_2.index t (1 : Fin 2)
    ∧ win3_1.index t (1 : Fin 2) = 0
    ∧ win3_2.index t (0 : Fin 2) ≤ 15 ∧ win3_2.index t (1 : Fin 2) ≤ 2 :=
  (by decide +kernel : ∀ t : Fin grid3.N, _)

/-- Every block of the result is some point's. -/
theorem idx_onto : ∀ (q0 : Fin 16) (q1 : Fin 3), ∃ t : Fin cfg3.N, win3_2.index t = ![q0.val, q1.val] :=
  (by decide +kernel : ∀ (q0 : Fin 16) (q1 : Fin 3), ∃ t : Fin grid3.N, win3_2.index t = ![q0.val, q1.val])

/-- x's block at a point, at an entry: the array's entry at block index × block size + the entry's coordinate. -/
theorem blockA_apply (c : Dev nD) (t : Fin cfg3.N) (x : S512x1024.Idx) (k : S8192x1024.Idx)
    (hk0 : (k 0).val = win3_0.index t (0 : Fin 2) * 512 + (x 0).val)
    (hk1 : (k 1).val = win3_0.index t (1 : Fin 2) * 1024 + (x 1).val) :
    (iblk3 V c 0 t : Vec Ideal S512x1024 .f32) x = (V c main_v158 : S8192x1024.Idx → Elt Ideal .f32) k := by
  unfold iblk3
  rw [View.read_apply]
  show (V c main_v158 : S8192x1024.Idx → Elt Ideal .f32) _ = _
  refine congrArg (V c main_v158 : S8192x1024.Idx → Elt Ideal .f32) (funext fun a => Fin.ext ?_)
  match a with
  | ⟨0, _⟩ => show win3_0.index t (0 : Fin 2) * 512 + 1 * (x 0).val = (k 0).val; omega
  | ⟨1, _⟩ => show win3_0.index t (1 : Fin 2) * 1024 + 1 * (x 1).val = (k 1).val; omega

/-- W's block at a point, at an entry. -/
theorem blockB_apply (c : Dev nD) (t : Fin cfg3.N) (x : S256x1024.Idx) (k : S768x1024.Idx)
    (hk0 : (k 0).val = win3_1.index t (0 : Fin 2) * 256 + (x 0).val)
    (hk1 : (k 1).val = win3_1.index t (1 : Fin 2) * 1024 + (x 1).val) :
    (iblk3 V c 1 t : Vec Ideal S256x1024 .f32) x = (V c main_arg8 : S768x1024.Idx → Elt Ideal .f32) k := by
  unfold iblk3
  rw [View.read_apply]
  show (V c main_arg8 : S768x1024.Idx → Elt Ideal .f32) _ = _
  refine congrArg (V c main_arg8 : S768x1024.Idx → Elt Ideal .f32) (funext fun a => Fin.ext ?_)
  match a with
  | ⟨0, _⟩ => show win3_1.index t (0 : Fin 2) * 256 + 1 * (x 0).val = (k 0).val; omega
  | ⟨1, _⟩ => show win3_1.index t (1 : Fin 2) * 1024 + 1 * (x 1).val = (k 1).val; omega

/-- WHAT A POINT WRITES BACK is its block of the whole product. -/
theorem flushed_eq (c : Dev nD) (t : Fin cfg3.N) :
    (dat3 V c).flushed 2 t = ((cfg3.win 2).blk t).view.read (Elt Ideal) (whole V c) := by
  show (cfg3.win 2).cut (grid3.coords t) ((dat3 V c).after 2 t) = _
  rw [after3_2]
  unfold out3_2
  rw [View.canon_unit_zero zeros]
  simp only [View.ld_unit_zero (S := S512x1024) zeros, View.ld_unit_zero (S := S256x1024) zeros]
  obtain ⟨e0, e1, e2, e3, b0, b1⟩ := idx_facts t
  funext j
  obtain ⟨p, q, rfl⟩ : ∃ (p : Fin 512) (q : Fin 256), j = ix2 p q := ⟨j 0, j 1, eq_ix2 j⟩
  show k3_pay1 (F := Ideal) (iblk3 V c 0 t) (iblk3 V c 1 t) (ix2 p q)
    = xwT (M := 8192) (K := 1024) (N := 768) (V c main_v158) (V c main_arg8) (((cfg3.win 2).blk t).view.emb (ix2 p q))
  refine entry (V c main_v158) (V c main_arg8) (iblk3 V c 0 t) (iblk3 V c 1 t) _ p q (fun cc => ?_) (fun cc => ?_)
  · refine blockA_apply V c t (ix2 p cc) _ ?_ ?_
    · show win3_2.index t (0 : Fin 2) * 512 + 1 * p.val = win3_0.index t (0 : Fin 2) * 512 + p.val; omega
    · show cc.val = win3_0.index t (1 : Fin 2) * 1024 + cc.val; omega
  · refine blockB_apply V c t (ix2 q cc) _ ?_ ?_
    · show win3_2.index t (1 : Fin 2) * 256 + 1 * q.val = win3_1.index t (0 : Fin 2) * 256 + q.val; omega
    · show cc.val = win3_1.index t (1 : Fin 2) * 1024 + cc.val; omega

/-- An index of the result is in a point's block iff each coordinate is in the block's range on its axis. -/
theorem mem_blk (t : Fin cfg3.N) (i : S8192x768.Idx) :
    i ∈ ((cfg3.win 2).blk t).view.set ↔ ∀ a : Fin 2, win3_2.index t a * S512x256.size a ≤ (i a).val ∧ (i a).val < win3_2.index t a * S512x256.size a + S512x256.size a := by
  show i ∈ ((View.whole main_v159).slice (win3_2.rect t)).set ↔ _
  rw [View.set_slice_whole, Rect.mem_set_unit]
  exact Iff.rfl

/-- THE BLOCKS COVER THE RESULT: entry (r, s) lies in block (r / 512, s / 256). -/
theorem cover (i : S8192x768.Idx) : ∃ t : Fin cfg3.N, (cfg3.win 2).flush t = true ∧ i ∈ ((cfg3.win 2).blk t).view.set := by
  have hi0 : (i 0).val < 8192 := (i 0).isLt
  have hi1 : (i 1).val < 768 := (i 1).isLt
  obtain ⟨t, ht⟩ := idx_onto ⟨(i 0).val / 512, by omega⟩ ⟨(i 1).val / 256, by omega⟩
  have q0 : win3_2.index t (0 : Fin 2) = (i 0).val / 512 := congrFun ht 0
  have q1 : win3_2.index t (1 : Fin 2) = (i 1).val / 256 := congrFun ht 1
  refine ⟨t, flush3_2 t, ?_⟩
  rw [mem_blk]
  intro a
  match a with
  | ⟨0, _⟩ => show win3_2.index t (0 : Fin 2) * 512 ≤ (i 0).val ∧ (i 0).val < win3_2.index t (0 : Fin 2) * 512 + 512; omega
  | ⟨1, _⟩ => show win3_2.index t (1 : Fin 2) * 256 ≤ (i 1).val ∧ (i 1).val < win3_2.index t (1 : Fin 2) * 256 + 256; omega

/-- THE RESULT ARRAY AFTER THE REGION is the whole product of the two arrays it read. -/
theorem final (c : Dev nD) : (dat3 V c).arrAt 2 cfg3.N = whole V c :=
  (dat3 V c).arrAt_eq_of_cover 2 (whole V c) (fun t _ => flushed_eq V c t) cover

end Cert.KernelIdeal.Tile3

end
-- ==== Proof.KernelFold.lean ====
/-
  The kernel program's result as one function of its arguments.

  The program is region, glue, region, glue, region, glue, region, bias. Each region leaves x · Wᵀ of the two arrays it
  read (the tiling does not show in the result); each stretch of glue leaves the layer function of the product before it,
  the edge list and a bias; the last three host operations add the output bias. Reading the fold of the program's
  segments from its end back to the launch, with each argument array as launched at the boundary where it is read, the
  result is

      outBias (h3 · Wlᵀ) bl,  h3 = conv (h2 · W3ᵀ) e b3,  h2 = conv (h1 · W2ᵀ) e b2,  h1 = conv (x · W1ᵀ) e b1,

  the network over the four products x · Wᵀ.
-/
import proofs.«133313_j6708738916816_1_alg».proof.Proof.Gen.KernelIdeal.Frame
import proofs.«133313_j6708738916816_1_alg».proof.Proof.KernelKept
import proofs.«133313_j6708738916816_1_alg».proof.Proof.KernelGlue3
import proofs.«133313_j6708738916816_1_alg».proof.Proof.Tile0
import proofs.«133313_j6708738916816_1_alg».proof.Proof.Tile1
import proofs.«133313_j6708738916816_1_alg».proof.Proof.Tile2
import proofs.«133313_j6708738916816_1_alg».proof.Proof.Tile3
import proofs.«133313_j6708738916816_1_alg».proof.Proof.Layers

set_option maxRecDepth 16384

noncomputable section

namespace Cert.KernelIdeal.Fold

open Cert.KernelIdeal Cert.KernelIdeal.Gen Cert.KernelIdeal.Kept Cert.KernelIdeal.Glue
open Idealize.ShloMosaic Idealize.ShloMosaic.TcCoe Idealize.SL.Sem Idealize.ShloMosaic.StableHlo
open Cert.LibRowProduct (xwT)
open Cert.Layers (conv2048 conv1024 outBias net)

variable (m : (ℓ : Loc nD τ sig) → Buf (Elt Ideal) ℓ) (ρ : Dev nD → PrngReg)

/-! ## The arrays along the way, as functions of the launch memory -/

/-- x · W1ᵀ. -/
def y0 (c : Dev nD) := xwT (M := 8192) (K := 256) (N := 2048) (m ((c : Thread nD τ).loc main_arg0)) (m ((c : Thread nD τ).loc main_arg2))
/-- The first layer. -/
def h1 (c : Dev nD) := conv2048 (F := Ideal) (y0 m c) (m ((c : Thread nD τ).loc main_arg1)) (m ((c : Thread nD τ).loc main_arg3))
/-- h1 · W2ᵀ. -/
def y1 (c : Dev nD) := xwT (M := 8192) (K := 2048) (N := 2048) (h1 m c) (m ((c : Thread nD τ).loc main_arg4))
/-- The second layer. -/
def h2 (c : Dev nD) := conv2048 (F := Ideal) (y1 m c) (m ((c : Thread nD τ).loc main_arg1)) (m ((c : Thread nD τ).loc main_arg5))
/-- h2 · W3ᵀ. -/
def y2 (c : Dev nD) := xwT (M := 8192) (K := 2048) (N := 1024) (h2 m c) (m ((c : Thread nD τ).loc main_arg6))
/-- The third layer. -/
def h3 (c : Dev nD) := conv1024 (F := Ideal) (y2 m c) (m ((c : Thread nD τ).loc main_arg1)) (m ((c : Thread nD τ).loc main_arg7))
/-- h3 · Wlᵀ. -/
def y3 (c : Dev nD) := xwT (M := 8192) (K := 1024) (N := 768) (h3 m c) (m ((c : Thread nD τ).loc main_arg8))
/-- The result: the output bias added to every row. -/
def out (c : Dev nD) := outBias (F := Ideal) (y3 m c) (m ((c : Thread nD τ).loc main_arg9))

/-- The result is the network over the four products x · Wᵀ. -/
theorem out_eq_net (c : Dev nD) : out m c = net (F := Ideal)
    (xwT (M := 8192) (K := 256) (N := 2048)) (xwT (M := 8192) (K := 2048) (N := 2048))
    (xwT (M := 8192) (K := 2048) (N := 1024)) (xwT (M := 8192) (K := 1024) (N := 768))
    (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) := rfl

/-! ## The chain, from the launch to the result -/

/-- At the first region's exit its result array is x · W1ᵀ. -/
theorem e_y0 (c : Dev nD) : W1 m ρ c (Proc.devRef .tc main_v0) = y0 m c :=
  (W1_arr m ρ c 2).trans (Cert.KernelIdeal.Tile0.final (V0 m ρ) c)

/-- Before the second region the first layer's buffer holds h1. -/
theorem e_h1 (c : Dev nD) : W4 m ρ c (Proc.devRef .tc main_v52) = h1 m c := by
  rw [glue1, e_y0, W1_arg1, W1_arg3]; rfl

/-- At the second region's exit its result array is h1 · W2ᵀ. -/
theorem e_y1 (c : Dev nD) : W5 m ρ c (Proc.devRef .tc main_v53) = y1 m c := by
  refine (W5_arr m ρ c 2).trans ((Cert.KernelIdeal.Tile1.final (V4 m ρ) c).trans ?_)
  show xwT (M := 8192) (K := 2048) (N := 2048) (W4 m ρ c (Proc.devRef .tc main_v52)) (W4 m ρ c (Proc.devRef .tc main_arg4)) = _
  rw [e_h1, W4_arg4]; rfl

/-- Before the third region the second layer's buffer holds h2. -/
theorem e_h2 (c : Dev nD) : W8 m ρ c (Proc.devRef .tc main_v105) = h2 m c := by
  rw [glue2, e_y1, W5_arg1, W5_arg5]; rfl

/-- At the third region's exit its result array is h2 · W3ᵀ. -/
theorem e_y2 (c : Dev nD) : W9 m ρ c (Proc.devRef .tc main_v106) = y2 m c := by
  refine (W9_arr m ρ c 2).trans ((Cert.KernelIdeal.Tile2.final (V8 m ρ) c).trans ?_)
  show xwT (M := 8192) (K := 2048) (N := 1024) (W8 m ρ c (Proc.devRef .tc main_v105)) (W8 m ρ c (Proc.devRef .tc main_arg6)) = _
  rw [e_h2, W8_arg6]; rfl

/-- Before the fourth region the third layer's buffer holds h3. -/
theorem e_h3 (c : Dev nD) : W12 m ρ c (Proc.devRef .tc main_v158) = h3 m c := by
  rw [glue3, e_y2, W9_arg1, W9_arg7]; rfl

/-- At the fourth region's exit its result array is h3 · Wlᵀ. -/
theorem e_y3 (c : Dev nD) : W13 m ρ c (Proc.devRef .tc main_v159) = y3 m c := by
  refine (W13_arr m ρ c 2).trans ((Cert.KernelIdeal.Tile3.final (V12 m ρ) c).trans ?_)
  show xwT (M := 8192) (K := 1024) (N := 768) (W12 m ρ c (Proc.devRef .tc main_v158)) (W12 m ρ c (Proc.devRef .tc main_arg8)) = _
  rw [e_h3, W12_arg8]; rfl

/-- THE RESULT BUFFER AT THE END OF THE FOLD is the network's value. -/
theorem e_out (c : Dev nD) : W14 m ρ c (Proc.devRef .tc main_v162) = out m c := by
  rw [glue4, e_y3, W13_arg9]; rfl

end Cert.KernelIdeal.Fold

end
-- ==== Proof.ReferenceValue.lean ====
/-
  The reference's result, cut at its four matrix products: the term its run ends at is the network applied to the
  host's products — three graph-convolution layers and the output bias, each layer one function of its product, the edge
  list and its bias.
-/
import proofs.«133313_j6708738916816_1_alg».proof.Proof.ReferenceRun
import proofs.«133313_j6708738916816_1_alg».proof.Proof.Layers

set_option maxRecDepth 16384

noncomputable section

namespace Cert.Layers

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- THE REFERENCE'S RESULT is the network over the host's products: its composed term, cut at the four products. -/
theorem reference_eq (m : (ℓ : Loc nD τ sig) → Buf (Elt F) ℓ) (c : Dev nD) :
    Cert.ReferenceIdeal.ValueP.res_main_v166 m c
      = net host1 host2 host3 host4 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.ValueP.res_main_v166 net outBias conv1024 conv2048 host1 host2 host3 host4
  rfl

end Cert.Layers

end
-- ==== Proof.lean ====
/-
  A three-layer graph convolution network with a linear output layer, its four matrix products computed by tiled kernels,
  against the same network with the products computed on the host: over the extended reals the two end with equal results.

  Both programs compute, for node features x, an edge list e, weights W1, W2, W3, Wl and biases b1, b2, b3, bl,

      h1 = conv (x  · W1ᵀ) e b1,   h2 = conv (h1 · W2ᵀ) e b2,   h3 = conv (h2 · W3ᵀ) e b3,   y = h3 · Wlᵀ + bl,

  where conv p e b = tanh (D^(-1/2) (A + I) D^(-1/2) p + b) is the symmetric-normalized aggregation over the edges with
  self-loops. The two programs apply the same host operations for conv and for the output bias; they differ only in how
  a product h · Wᵀ is formed. The reference transposes W and contracts h's columns against its rows. The kernel program
  cuts the result into blocks, and for each block contracts the columns of a block of rows of h against the columns of a
  block of rows of W on the matrix unit, starting from zero, after rounding both to a narrower format. Over the extended
  reals the rounding is the identity, and entry (r, s) of either product is the finite sum over c of h (r, c) · W (s, c),
  the same terms in the same order: the tiling chooses which point writes the entry, not what is written. So the four
  products agree entry by entry, with no law of arithmetic used and no use of the inputs being finite, and equal products
  fed to equal layers give equal results.

  The kernel's value is read off its run: the fold of its four regions and the host stretches between them
  (Proof/KernelRun.lean, Proof/KernelFold.lean, one Proof/TileK.lean per region); the reference's off its run
  (Proof/ReferenceRun.lean, Proof/ReferenceValue.lean); the layers are named once for both (Proof/Layers.lean) and the
  product x · Wᵀ once for all eight spellings (Proof/LibRowProduct.lean). The kernel is its own idealization: the
  idealizing pass rewrote nothing, so that conjunct asks nothing.
-/
import proofs.«133313_j6708738916816_1_alg».proof.Defs
import proofs.«133313_j6708738916816_1_alg».proof.Proof.Gen.Kernel
import proofs.«133313_j6708738916816_1_alg».proof.Proof.Gen.Kernel.Skeleton
import proofs.«133313_j6708738916816_1_alg».proof.Proof.Gen.Kernel.Launch
import proofs.«133313_j6708738916816_1_alg».proof.Proof.Gen.Kernel.Points
import proofs.«133313_j6708738916816_1_alg».proof.Proof.Gen.Kernel.Frame
import proofs.«133313_j6708738916816_1_alg».proof.Proof.Gen.KernelIdeal
import proofs.«133313_j6708738916816_1_alg».proof.Proof.Gen.KernelIdeal.Skeleton
import proofs.«133313_j6708738916816_1_alg».proof.Proof.Gen.KernelIdeal.Launch
import proofs.«133313_j6708738916816_1_alg».proof.Proof.Gen.KernelIdeal.Points
import proofs.«133313_j6708738916816_1_alg».proof.Proof.Gen.KernelIdeal.Frame
import proofs.«133313_j6708738916816_1_alg».proof.Proof.Gen.ReferenceIdeal
import proofs.«133313_j6708738916816_1_alg».proof.Proof.Gen.Pre_finite_inputs
import Idealize.ShloMosaic.Adequacy
import Idealize.ShloMosaic.Init
import proofs.«133313_j6708738916816_1_alg».proof.Proof.KernelRun
import proofs.«133313_j6708738916816_1_alg».proof.Proof.KernelFold
import proofs.«133313_j6708738916816_1_alg».proof.Proof.ReferenceRun
import proofs.«133313_j6708738916816_1_alg».proof.Proof.ReferenceValue

noncomputable section

namespace Cert.Proof

open Idealize.ShloMosaic Idealize.SL.Sem

/-- The kernel program runs and leaves its arguments as launched. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealizing pass rewrote no operation of the kernel program. -/
theorem preserves : Cert.preserves_Kernel_KernelIdeal := trivial

/-- From memories that agree on the arguments both programs end, with the network's value over the four products
    x · Wᵀ in their result buffers: the kernel program by the fold of its regions and host stretches, the reference by its
    composed term cut at its four products, each of which is x · Wᵀ entry by entry. -/
theorem algebraic : Cert.algebraic_KernelIdeal_ReferenceIdeal := by
  intro m ρ m' ρ' _ hagree
  refine ⟨fun c => Cert.KernelIdeal.Fold.out m c, ?_, ?_⟩
  · exact (θ_run Cert.KernelIdeal.defs _ _).mono
      (fun _ h c => ⟨(h c).1.trans (Cert.KernelIdeal.Fold.e_out m ρ c), (h c).2⟩)
      (Cert.KernelIdeal.RunOut.run_out (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7, a8, a9⟩ := hagree c
    rw [Cert.Layers.reference_eq, Cert.Layers.host1_eq, Cert.Layers.host2_eq, Cert.Layers.host3_eq, Cert.Layers.host4_eq,
      a0, a1, a2, a3, a4, a5, a6, a7, a8, a9]
    exact (Cert.KernelIdeal.Fold.out_eq_net m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
